-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S2x625000 : Shape := ⟨2, ![2, 625000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x128 .f32) (main_arg1 : FVec F S3x128x128 .f32) (main_arg2 : FVec F S3x128 .f32) (main_arg3 : FVec F S128x1 .f32) (main_arg4 : FVec F S1 .f32) (main_arg5 : IVec S2x625000 32) (main_arg6 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_v13 main_v16
-- ==== Kernel.lean ====
abbrev S50000x128 : Shape := ⟨2, ![50000, 128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S2x625000 : Shape := ⟨2, ![2, 625000]⟩
abbrev S50000 : Shape := ⟨1, ![50000]⟩
abbrev S1x625000 : Shape := ⟨2, ![1, 625000]⟩
abbrev S625000 : Shape := ⟨1, ![625000]⟩
abbrev S675000 : Shape := ⟨1, ![675000]⟩
abbrev S_ : Shape := ⟨0, ![]⟩
abbrev S675000x1 : Shape := ⟨2, ![675000, 1]⟩
abbrev S50000x1 : Shape := ⟨2, ![50000, 1]⟩
abbrev S1x128x128 : Shape := ⟨3, ![1, 128, 128]⟩
abbrev S128x128 : Shape := ⟨2, ![128, 128]⟩
abbrev S5000x128 : Shape := ⟨2, ![5000, 128]⟩
abbrev S5000x1 : Shape := ⟨2, ![5000, 1]⟩
abbrev S675000x128 : Shape := ⟨2, ![675000, 128]⟩
abbrev S1x128 : Shape := ⟨2, ![1, 128]⟩
abbrev S128 : Shape := ⟨1, ![128]⟩
abbrev S512x128 : Shape := ⟨2, ![512, 128]⟩
abbrev S512 : Shape := ⟨1, ![512]⟩
abbrev S512x1 : Shape := ⟨2, ![512, 1]⟩
abbrev S1x1 : Shape := ⟨2, ![1, 1]⟩

abbrev nBuf : Space → Nat
  | .hbm => 107
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S3x128x128, .f32⟩
  | .hbm, ⟨2, _⟩ => ⟨S3x128, .f32⟩
  | .hbm, ⟨3, _⟩ => ⟨S128x1, .f32⟩
  | .hbm, ⟨4, _⟩ => ⟨S1, .f32⟩
  | .hbm, ⟨5, _⟩ => ⟨S2x625000, .i32⟩
  | .hbm, ⟨6, _⟩ => ⟨S50000, .i32⟩
  | .hbm, ⟨7, _⟩ => ⟨S50000, .i32⟩
  | .hbm, ⟨8, _⟩ => ⟨S1x625000, .i32⟩
  | .hbm, ⟨9, _⟩ => ⟨S625000, .i32⟩
  | .hbm, ⟨10, _⟩ => ⟨S675000, .i32⟩
  | .hbm, ⟨11, _⟩ => ⟨S1x625000, .i32⟩
  | .hbm, ⟨12, _⟩ => ⟨S625000, .i32⟩
  | .hbm, ⟨13, _⟩ => ⟨S675000, .i32⟩
  | .hbm, ⟨14, _⟩ => ⟨S_, .f32⟩
  | .hbm, ⟨15, _⟩ => ⟨S675000, .f32⟩
  | .hbm, ⟨16, _⟩ => ⟨S_, .f32⟩
  | .hbm, ⟨17, _⟩ => ⟨S50000, .f32⟩
  | .hbm, ⟨18, _⟩ => ⟨S675000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S50000, .f32⟩
  | .hbm, ⟨35, _⟩ => ⟨S50000x1, .f32⟩
  | .hbm, ⟨36, _⟩ => ⟨S1x128x128, .f32⟩
  | .hbm, ⟨37, _⟩ => ⟨S128x128, .f32⟩
  | .hbm, ⟨38, _⟩ => ⟨S50000x128, .f32⟩
  | .hbm, ⟨39, _⟩ => ⟨S_, .i32⟩
  | .hbm, ⟨40, _⟩ => ⟨S675000, .i32⟩
  | .hbm, ⟨41, _⟩ => ⟨S675000, .i1⟩
  | .hbm, ⟨42, _⟩ => ⟨S_, .i32⟩
  | .hbm, ⟨43, _⟩ => ⟨S675000, .i32⟩
  | .hbm, ⟨44, _⟩ => ⟨S675000, .i32⟩
  | .hbm, ⟨45, _⟩ => ⟨S675000, .i32⟩
  | .hbm, ⟨46, _⟩ => ⟨S675000x1, .i32⟩
  | .hbm, ⟨47, _⟩ => ⟨S675000x128, .f32⟩
  | .hbm, ⟨48, _⟩ => ⟨S_, .f32⟩
  | .hbm, ⟨49, _⟩ => ⟨S50000x128, .f32⟩
  | .hbm, ⟨50, _⟩ => ⟨S675000x1, .i32⟩
  | .hbm, ⟨51, _⟩ => ⟨S50000x128, .f32⟩
  | .hbm, ⟨52, _⟩ => ⟨S1x128, .f32⟩
  | .hbm, ⟨53, _⟩ => ⟨S128, .f32⟩
  | .hbm, ⟨54, _⟩ => ⟨S1x128x128, .f32⟩
  | .hbm, ⟨55, _⟩ => ⟨S128x128, .f32⟩
  | .hbm, ⟨56, _⟩ => ⟨S1x128, .f32⟩
  | .hbm, ⟨57, _⟩ => ⟨S50000x128, .f32⟩
  | .hbm, ⟨58, _⟩ => ⟨S_, .i32⟩
  | .hbm, ⟨59, _⟩ => ⟨S675000, .i32⟩
  | .hbm, ⟨60, _⟩ => ⟨S675000, .i1⟩
  | .hbm, ⟨61, _⟩ => ⟨S_, .i32⟩
  | .hbm, ⟨62, _⟩ => ⟨S675000, .i32⟩
  | .hbm, ⟨63, _⟩ => ⟨S675000, .i32⟩
  | .hbm, ⟨64, _⟩ => ⟨S675000, .i32⟩
  | .hbm, ⟨65, _⟩ => ⟨S675000x1, .i32⟩
  | .hbm, ⟨66, _⟩ => ⟨S675000x128, .f32⟩
  | .hbm, ⟨67, _⟩ => ⟨S_, .f32⟩
  | .hbm, ⟨68, _⟩ => ⟨S50000x128, .f32⟩
  | .hbm, ⟨69, _⟩ => ⟨S675000x1, .i32⟩
  | .hbm, ⟨70, _⟩ => ⟨S50000x128, .f32⟩
  | .hbm, ⟨71, _⟩ => ⟨S1x128, .f32⟩
  | .hbm, ⟨72, _⟩ => ⟨S128, .f32⟩
  | .hbm, ⟨73, _⟩ => ⟨S1x128x128, .f32⟩
  | .hbm, ⟨74, _⟩ => ⟨S128x128, .f32⟩
  | .hbm, ⟨75, _⟩ => ⟨S1x128, .f32⟩
  | .hbm, ⟨76, _⟩ => ⟨S50000x128, .f32⟩
  | .hbm, ⟨77, _⟩ => ⟨S_, .i32⟩
  | .hbm, ⟨78, _⟩ => ⟨S675000, .i32⟩
  | .hbm, ⟨79, _⟩ => ⟨S675000, .i1⟩
  | .hbm, ⟨80, _⟩ => ⟨S_, .i32⟩
  | .hbm, ⟨81, _⟩ => ⟨S675000, .i32⟩
  | .hbm, ⟨82, _⟩ => ⟨S675000, .i32⟩
  | .hbm, ⟨83, _⟩ => ⟨S675000, .i32⟩
  | .hbm, ⟨84, _⟩ => ⟨S675000x1, .i32⟩
  | .hbm, ⟨85, _⟩ => ⟨S675000x128, .f32⟩
  | .hbm, ⟨86, _⟩ => ⟨S_, .f32⟩
  | .hbm, ⟨87, _⟩ => ⟨S50000x128, .f32⟩
  | .hbm, ⟨88, _⟩ => ⟨S675000x1, .i32⟩
  | .hbm, ⟨89, _⟩ => ⟨S50000x128, .f32⟩
  | .hbm, ⟨90, _⟩ => ⟨S1x128, .f32⟩
  | .hbm, ⟨91, _⟩ => ⟨S128, .f32⟩
  | .hbm, ⟨92, _⟩ => ⟨S1x128, .f32⟩
  | .hbm, ⟨93, _⟩ => ⟨S50000x128, .f32⟩
  | .hbm, ⟨94, _⟩ => ⟨S_, .f32⟩
  | .hbm, ⟨95, _⟩ => ⟨S512x128, .f32⟩
  | .hbm, ⟨96, _⟩ => ⟨S50000x1, .i32⟩
  | .hbm, ⟨97, _⟩ => ⟨S512x128, .f32⟩
  | .hbm, ⟨98, _⟩ => ⟨S50000, .f32⟩
  | .hbm, ⟨99, _⟩ => ⟨S_, .f32⟩
  | .hbm, ⟨100, _⟩ => ⟨S512, .f32⟩
  | .hbm, ⟨101, _⟩ => ⟨S50000x1, .i32⟩
  | .hbm, ⟨102, _⟩ => ⟨S512, .f32⟩
  | .hbm, ⟨103, _⟩ => ⟨S512x1, .f32⟩
  | .hbm, ⟨104, _⟩ => ⟨S1x1, .f32⟩
  | .hbm, ⟨105, _⟩ => ⟨S512x1, .f32⟩
  | .hbm, ⟨106, _⟩ => ⟨S512, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x1, .f32⟩
  | .local _ .vmem, ⟨29, _⟩ => ⟨S5000x1, .f32⟩
  | .local _ .vmem, ⟨30, _⟩ => ⟨S5000x128, .f32⟩
  | .local _ .vmem, ⟨31, _⟩ => ⟨S5000x128, .f32⟩
  | .local _ .vmem, ⟨32, _⟩ => ⟨S512x128, .f32⟩
  | .local _ .vmem, ⟨33, _⟩ => ⟨S512x1, .f32⟩
  | .local _ .vmem, ⟨34, _⟩ => ⟨S128x1, .f32⟩
  | .local _ .vmem, ⟨35, _⟩ => ⟨S1x1, .f32⟩
  | .local _ .vmem, ⟨36, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_c_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_c_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem1_0 : DmaSem sig := 33
abbrev cc4_sem2_0 : DmaSem sig := 34
abbrev cc4_sem3_0 : DmaSem sig := 35
abbrev cc4_sem4_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S512x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x625000_S1x625000_0_0 : S2x625000.Slices ![0, 0] S1x625000
  shapeCasts_S1x625000_S625000 : S1x625000.ShapeCasts S625000
  concatenates_S625000_S50000_S675000_d0 : Shape.Concatenates [S625000, S50000] S675000 0
  slices_S2x625000_S1x625000_1_0 : S2x625000.Slices ![1, 0] S1x625000
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  shapeCasts_S50000_S50000x1 : S50000.ShapeCasts S50000x1
  reducesTo_S50000x128_S50000_d1 : S50000x128.ReducesTo [1] S50000
  h_S_ : 0 < S_.numel
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  shapeCasts_S50000x1_S50000 : S50000x1.ShapeCasts S50000
  bcast_S_S512 : S_.BroadcastsInDim S512 (![] : Fin 0 → Fin S512.rank)
  shapeCasts_S512_S512x1 : S512.ShapeCasts S512x1
  shapeCasts_S1_S1x1 : S1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  shapeCasts_S512x1_S512 : S512x1.ShapeCasts S512
  scatter_S50000_S675000x1_S675000_n_0_0_1_wf : ScatterDims.WF S50000 S675000x1 S675000 [] [0] [0] 1
  dot_S5000x128_S128x128_S5000x128_1_0_0_1_n_n_wf : DotDims.WF S5000x128 S128x128 S5000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x1.size a ≤ S512x1.size a
  hwx4_1 : ∀ i : grid4.Coords, EltTy.bits .f32 = 32 ∨ (Rect.block (s := S512x1) S512x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x1.size a ≤ S128x1.size a
  hwx4_2 : ∀ i : grid4.Coords, EltTy.bits .f32 = 32 ∨ (Rect.block (s := S128x1) S128x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x1.size a ≤ S512x1.size a
  hwx4_4 : ∀ i : grid4.Coords, EltTy.bits .f32 = 32 ∨ (Rect.block (s := S512x1) S512x1.size (cc4_transform_4 i) (hinb4_4 i)).WholeWords (EltTy.packing .f32)

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v20) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v69) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v72) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v77) S512x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg3) S128x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79) S512x1.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S2x625000 : Shape := ⟨2, ![2, 625000]⟩
abbrev S50000 : Shape := ⟨1, ![50000]⟩
abbrev S1x625000 : Shape := ⟨2, ![1, 625000]⟩
abbrev S625000 : Shape := ⟨1, ![625000]⟩
abbrev S675000 : Shape := ⟨1, ![675000]⟩
abbrev S_ : Shape := ⟨0, ![]⟩
abbrev S675000x1 : Shape := ⟨2, ![675000, 1]⟩
abbrev S1x128x128 : Shape := ⟨3, ![1, 128, 128]⟩
abbrev S128x128 : Shape := ⟨2, ![128, 128]⟩
abbrev S675000x128 : Shape := ⟨2, ![675000, 128]⟩
abbrev S1x128 : Shape := ⟨2, ![1, 128]⟩
abbrev S128 : Shape := ⟨1, ![128]⟩
abbrev S50000x1 : Shape := ⟨2, ![50000, 1]⟩
abbrev S512x128 : Shape := ⟨2, ![512, 128]⟩
abbrev S512 : Shape := ⟨1, ![512]⟩
abbrev S512x1 : Shape := ⟨2, ![512, 1]⟩
abbrev S1x1 : Shape := ⟨2, ![1, 1]⟩

abbrev nBuf : Space → Nat
  | .hbm => 156
  | .vmem => 0
  | .smem => 0
  | _ => 0

abbrev hbmTy0_0 (i : Nat) : BufTy := match i % 128 with
  | 0 => ⟨S50000x128, .f32⟩
  | 1 => ⟨S3x128x128, .f32⟩
  | 2 => ⟨S3x128, .f32⟩
  | 3 => ⟨S128x1, .f32⟩
  | 4 => ⟨S1, .f32⟩
  | 5 => ⟨S2x625000, .i32⟩
  | 6 => ⟨S50000, .i32⟩
  | 7 => ⟨S50000, .i32⟩
  | 8 => ⟨S1x625000, .i32⟩
  | 9 => ⟨S625000, .i32⟩
  | 10 => ⟨S675000, .i32⟩
  | 11 => ⟨S1x625000, .i32⟩
  | 12 => ⟨S625000, .i32⟩
  | 13 => ⟨S675000, .i32⟩
  | 14 => ⟨S_, .f32⟩
  | 15 => ⟨S675000, .f32⟩
  | 16 => ⟨S_, .f32⟩
  | 17 => ⟨S50000, .f32⟩
  | 18 => ⟨S675000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S675000, .i32⟩
  | 30 => ⟨S675000, .i1⟩
  | 31 => ⟨S_, .i32⟩
  | 32 => ⟨S675000, .i32⟩
  | 33 => ⟨S675000, .i32⟩
  | 34 => ⟨S675000, .i32⟩
  | 35 => ⟨S675000x1, .i32⟩
  | 36 => ⟨S675000, .f32⟩
  | 37 => ⟨S_, .i32⟩
  | 38 => ⟨S675000, .i32⟩
  | 39 => ⟨S675000, .i1⟩
  | 40 => ⟨S_, .i32⟩
  | 41 => ⟨S675000, .i32⟩
  | 42 => ⟨S675000, .i32⟩
  | 43 => ⟨S675000, .i32⟩
  | 44 => ⟨S675000x1, .i32⟩
  | 45 => ⟨S675000, .f32⟩
  | 46 => ⟨S675000, .f32⟩
  | 47 => ⟨S_, .f32⟩
  | 48 => ⟨S50000, .f32⟩
  | 49 => ⟨S_, .f32⟩
  | 50 => ⟨S50000, .f32⟩
  | 51 => ⟨S50000, .i1⟩
  | 52 => ⟨S50000, .f32⟩
  | 53 => ⟨S1x128x128, .f32⟩
  | 54 => ⟨S128x128, .f32⟩
  | 55 => ⟨S50000x128, .f32⟩
  | 56 => ⟨S_, .i32⟩
  | 57 => ⟨S675000, .i32⟩
  | 58 => ⟨S675000, .i1⟩
  | 59 => ⟨S_, .i32⟩
  | 60 => ⟨S675000, .i32⟩
  | 61 => ⟨S675000, .i32⟩
  | 62 => ⟨S675000, .i32⟩
  | 63 => ⟨S675000x1, .i32⟩
  | 64 => ⟨S675000x128, .f32⟩
  | 65 => ⟨S675000x1, .f32⟩
  | 66 => ⟨S675000x128, .f32⟩
  | 67 => ⟨S675000x128, .f32⟩
  | 68 => ⟨S_, .f32⟩
  | 69 => ⟨S50000x128, .f32⟩
  | 70 => ⟨S675000x1, .i32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S1x128x128, .f32⟩
  | 81 => ⟨S128x128, .f32⟩
  | 82 => ⟨S50000x128, .f32⟩
  | 83 => ⟨S_, .i32⟩
  | 84 => ⟨S675000, .i32⟩
  | 85 => ⟨S675000, .i1⟩
  | 86 => ⟨S_, .i32⟩
  | 87 => ⟨S675000, .i32⟩
  | 88 => ⟨S675000, .i32⟩
  | 89 => ⟨S675000, .i32⟩
  | 90 => ⟨S675000x1, .i32⟩
  | 91 => ⟨S675000x128, .f32⟩
  | 92 => ⟨S675000x1, .f32⟩
  | 93 => ⟨S675000x128, .f32⟩
  | 94 => ⟨S675000x128, .f32⟩
  | 95 => ⟨S_, .f32⟩
  | 96 => ⟨S50000x128, .f32⟩
  | 97 => ⟨S675000x1, .i32⟩
  | 98 => ⟨S50000x128, .f32⟩
  | 99 => ⟨S1x128, .f32⟩
  | 100 => ⟨S128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S1x128x128, .f32⟩
  | 108 => ⟨S128x128, .f32⟩
  | 109 => ⟨S50000x128, .f32⟩
  | 110 => ⟨S_, .i32⟩
  | 111 => ⟨S675000, .i32⟩
  | 112 => ⟨S675000, .i1⟩
  | 113 => ⟨S_, .i32⟩
  | 114 => ⟨S675000, .i32⟩
  | 115 => ⟨S675000, .i32⟩
  | 116 => ⟨S675000, .i32⟩
  | 117 => ⟨S675000x1, .i32⟩
  | 118 => ⟨S675000x128, .f32⟩
  | 119 => ⟨S675000x1, .f32⟩
  | 120 => ⟨S675000x128, .f32⟩
  | 121 => ⟨S675000x128, .f32⟩
  | 122 => ⟨S_, .f32⟩
  | 123 => ⟨S50000x128, .f32⟩
  | 124 => ⟨S675000x1, .i32⟩
  | 125 => ⟨S50000x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S50000x1, .f32⟩
  | 7 => ⟨S50000x128, .f32⟩
  | 8 => ⟨S50000x128, .f32⟩
  | 9 => ⟨S_, .f32⟩
  | 10 => ⟨S512x128, .f32⟩
  | 11 => ⟨S50000x1, .i32⟩
  | 12 => ⟨S512x128, .f32⟩
  | 13 => ⟨S_, .f32⟩
  | 14 => ⟨S512, .f32⟩
  | 15 => ⟨S50000x1, .i32⟩
  | 16 => ⟨S512, .f32⟩
  | 17 => ⟨S_, .f32⟩
  | 18 => ⟨S512, .f32⟩
  | 19 => ⟨S512, .f32⟩
  | 20 => ⟨S512x1, .f32⟩
  | 21 => ⟨S512x128, .f32⟩
  | 22 => ⟨S512x128, .f32⟩
  | 23 => ⟨S512x1, .f32⟩
  | 24 => ⟨S1x1, .f32⟩
  | 25 => ⟨S512x1, .f32⟩
  | 26 => ⟨S512x1, .f32⟩
  | 27 => ⟨S512, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call2_cst : Ref sig .tc := ⟨.hbm, 104, rfl⟩
abbrev main_call2_v0 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_14 : Ref sig .tc := ⟨.hbm, 110, rfl⟩
abbrev main_v81 : Ref sig .tc := ⟨.hbm, 111, rfl⟩
abbrev main_v82 : Ref sig .tc := ⟨.hbm, 112, rfl⟩
abbrev main_c_15 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_16 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_call3_cst : Ref sig .tc := ⟨.hbm, 131, rfl⟩
abbrev main_call3_v0 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_17 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_18 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_19 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  concatenates_S625000_S50000_S675000_d0 : Shape.Concatenates [S625000, S50000] S675000 0
  slices_S2x625000_S1x625000_1_0 : S2x625000.Slices ![1, 0] S1x625000
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  reducesTo_S50000x128_S50000_d1 : S50000x128.ReducesTo [1] S50000
  h_S_ : 0 < S_.numel
  slices_S3x128x128_S1x128x128_0_0_0 : S3x128x128.Slices ![0, 0, 0] S1x128x128
  shapeCasts_S1x128x128_S128x128 : S1x128x128.ShapeCasts S128x128
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  dot_S50000x128_S128x128_S50000x128_1_0_0_1_n_n_wf : DotDims.WF S50000x128 S128x128 S50000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x1_S512x1_1_0_0_1_n_n_wf : DotDims.WF S512x128 S128x1 S512x1 [1] [0] [0] [1] [] []

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KRun.lean ====
/-
  The idealized kernel's run with its RESULT named. @main is thirteen segments — host stretches and five
  pallas_call regions — and the launch theorem over them ends with every unscoped buffer at the last
  boundary's contents `W13`. The frame claim reads only the seven argument buffers off that state; here the
  result buffer `main_v80` is read off it as well, so the run's post says: the result is `W13 … main_v80`
  (the last reshape applied to what region 4 wrote back) and the arguments are as launched.
-/
import proofs.«146795_j3770981286765_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of @main terminates without a fault; the result buffer ends at the last
    boundary's contents and the argument arrays end as launched. -/
theorem run_result : θ_run defs (onTc (τ := τ) (main (F := F))) ⟨m, fun _ => 0, ρ⟩ (fun r => ∀ c : Dev nD,
      r.2.mem ((c.tc : Thread nD τ).loc main_v80) = W13 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v80 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c)⟩)

end Cert.KernelIdeal.Gen

end
-- ==== Proof.KHostA.lean ====
/-
  The idealized kernel's host side, read through the run's boundary contents. @main alternates stretches of host
  operations with the five regions; `W k` is what every buffer holds at boundary `k` (stretches at odd steps from
  `W3`, regions at even ones). Four arrays are computed before region 0 and only read afterwards — each edge's source
  and destination node, the per-node scale as a column, the padding mask as a column — so they and the argument
  arrays are the same at every later boundary: a stretch that does not write a buffer leaves it, a region leaves every
  buffer that is not one of its arrays, and an input window's array ends as it was entered. With those in hand each
  stretch's products are read off as the host operations applied to them: the aggregate handed to a region is the
  scatter-add, over destination nodes, of the previous region's rows gathered at the source nodes (`segSum`).
-/
import proofs.«146795_j3770981286765_2_alg».proof.Proof.Gen.KernelIdeal.Frame
import Idealize.ShloMosaic.Lib.StableHlo.Run
import Idealize.ShloMosaic.PureOps.Ideal

set_option maxRecDepth 16384

noncomputable section

namespace Cert.KernelIdeal.Host

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window BodyObligation cellOf)

variable (m : (ℓ : Loc nD τ sig) → Buf (Elt Ideal) ℓ) (ρ : Dev nD → PrngReg) (c : Dev nD)

/-! ## The arrays computed once, before region 0 -/

/-- Each edge's source node as given (the self loops appended), before negative indices are wrapped. -/
def src : IVec S675000 32 := W3 m ρ c (Proc.devRef .tc main_v3)
/-- Each edge's destination node as given (the self loops appended). -/
def dst : IVec S675000 32 := W3 m ρ c (Proc.devRef .tc main_v6)
/-- The per-node scale (inverse square root of the in-degree, zero at degree zero) as a column. -/
def dcol : Vec Ideal S50000x1 .f32 := W3 m ρ c (Proc.devRef .tc main_v15)
/-- The padding mask (one where the node's feature row does not sum to zero) as a column. -/
def mcol : Vec Ideal S50000x1 .f32 := W3 m ρ c (Proc.devRef .tc main_v20)

/-- An index list as the one-column array a gather or scatter reads. -/
abbrev col (s : IVec S675000 32) : IVec S675000x1 32 := broadcastInDim S675000x1 ![0] bcast_S675000_S675000x1_0 s
/-- A negative index counts from the end: `s + 50000` where `s < 0`. -/
abbrev wrap (s : IVec S675000 32) : IVec S675000 32 :=
  select (cmpi .slt s (broadcastInDim S675000 ![] bcast_S_S675000 (constantI S_ 32 0#32)))
    (addi s (broadcastInDim S675000 ![] bcast_S_S675000 (constantI S_ 32 50000#32))) s
/-- The rows of `h` gathered at every edge's source node and summed into the edge's destination node. -/
def segSum (h : Vec Ideal S50000x128 .f32) : Vec Ideal S50000x128 .f32 :=
  Host.scatterAdd (F := Ideal) scatter_S50000x128_S675000x1_S675000x128_1_0_0_1
    (broadcastInDim S50000x128 ![] bcast_S_S50000x128 (constant S_ .f32 0x00000000#32))
    (col (dst m ρ c))
    (Host.gather gather_S50000x128_S675000x1_S675000x128_1_0_n_n_0_1_1128 h (col (wrap (src m ρ c))))
/-- Layer `L`'s weight matrix: slice `L` of the stacked weights. -/
def wt0 : Vec Ideal S128x128 .f32 :=
  shapeCast S128x128 (extractStridedSlice S1x128x128 ![0, 0, 0] (m ((c.tc : Thread nD τ).loc main_arg1)) slices_S3x128x128_S1x128x128_0_0_0) shapeCasts_S1x128x128_S128x128
def wt1 : Vec Ideal S128x128 .f32 :=
  shapeCast S128x128 (extractStridedSlice S1x128x128 ![1, 0, 0] (m ((c.tc : Thread nD τ).loc main_arg1)) slices_S3x128x128_S1x128x128_1_0_0) shapeCasts_S1x128x128_S128x128
def wt2 : Vec Ideal S128x128 .f32 :=
  shapeCast S128x128 (extractStridedSlice S1x128x128 ![2, 0, 0] (m ((c.tc : Thread nD τ).loc main_arg1)) slices_S3x128x128_S1x128x128_2_0_0) shapeCasts_S1x128x128_S128x128
/-- Layer `L`'s bias as a row: slice `L` of the stacked biases. -/
def bias0 : Vec Ideal S1x128 .f32 :=
  shapeCast S1x128 (shapeCast S128 (extractStridedSlice S1x128 ![0, 0] (m ((c.tc : Thread nD τ).loc main_arg2)) slices_S3x128_S1x128_0_0) shapeCasts_S1x128_S128) shapeCasts_S128_S1x128
def bias1 : Vec Ideal S1x128 .f32 :=
  shapeCast S1x128 (shapeCast S128 (extractStridedSlice S1x128 ![1, 0] (m ((c.tc : Thread nD τ).loc main_arg2)) slices_S3x128_S1x128_1_0) shapeCasts_S1x128_S128) shapeCasts_S128_S1x128
def bias2 : Vec Ideal S1x128 .f32 :=
  shapeCast S1x128 (shapeCast S128 (extractStridedSlice S1x128 ![2, 0] (m ((c.tc : Thread nD τ).loc main_arg2)) slices_S3x128_S1x128_2_0) shapeCasts_S1x128_S128) shapeCasts_S128_S1x128

/-! ## What persists: a buffer at a later boundary is the buffer at an earlier one -/

-- the argument arrays at region 0's entry: no host operation writes one
theorem arg0_at3 : W3 m ρ c (Proc.devRef .tc main_arg0) = m ((c.tc : Thread nD τ).loc main_arg0) := by
  dsimp only [W3, W2, W1, hostOps0_2, hostOps0_1, hostOps0]; after_results
theorem arg1_at3 : W3 m ρ c (Proc.devRef .tc main_arg1) = m ((c.tc : Thread nD τ).loc main_arg1) := by
  dsimp only [W3, W2, W1, hostOps0_2, hostOps0_1, hostOps0]; after_results
theorem arg2_at3 : W3 m ρ c (Proc.devRef .tc main_arg2) = m ((c.tc : Thread nD τ).loc main_arg2) := by
  dsimp only [W3, W2, W1, hostOps0_2, hostOps0_1, hostOps0]; after_results
theorem arg3_at3 : W3 m ρ c (Proc.devRef .tc main_arg3) = m ((c.tc : Thread nD τ).loc main_arg3) := by
  dsimp only [W3, W2, W1, hostOps0_2, hostOps0_1, hostOps0]; after_results
theorem arg4_at3 : W3 m ρ c (Proc.devRef .tc main_arg4) = m ((c.tc : Thread nD τ).loc main_arg4) := by
  dsimp only [W3, W2, W1, hostOps0_2, hostOps0_1, hostOps0]; after_results
theorem arg6_at3 : W3 m ρ c (Proc.devRef .tc main_arg6) = m ((c.tc : Thread nD τ).loc main_arg6) := by
  dsimp only [W3, W2, W1, hostOps0_2, hostOps0_1, hostOps0]; after_results

-- and the long-lived arrays and arguments at the later boundaries
theorem src_at4 : W4 m ρ c (Proc.devRef .tc main_v3) = src m ρ c :=
  (show W4 m ρ c (Proc.devRef .tc main_v3) = W3 m ρ c (Proc.devRef .tc main_v3) from W4_of_ne m ρ c main_v3 (by decide)).trans
    (rfl)
theorem dst_at4 : W4 m ρ c (Proc.devRef .tc main_v6) = dst m ρ c :=
  (show W4 m ρ c (Proc.devRef .tc main_v6) = W3 m ρ c (Proc.devRef .tc main_v6) from W4_of_ne m ρ c main_v6 (by decide)).trans
    (rfl)
theorem src_at6 : W6 m ρ c (Proc.devRef .tc main_v3) = src m ρ c :=
  (show W6 m ρ c (Proc.devRef .tc main_v3) = W5 m ρ c (Proc.devRef .tc main_v3) from W6_of_ne m ρ c main_v3 (by decide)).trans
    ((show W5 m ρ c (Proc.devRef .tc main_v3) = W4 m ρ c (Proc.devRef .tc main_v3) from by dsimp only [W5, hostOps1]; after_results).trans
    ((show W4 m ρ c (Proc.devRef .tc main_v3) = W3 m ρ c (Proc.devRef .tc main_v3) from W4_of_ne m ρ c main_v3 (by decide)).trans
    (rfl)))
theorem dst_at6 : W6 m ρ c (Proc.devRef .tc main_v6) = dst m ρ c :=
  (show W6 m ρ c (Proc.devRef .tc main_v6) = W5 m ρ c (Proc.devRef .tc main_v6) from W6_of_ne m ρ c main_v6 (by decide)).trans
    ((show W5 m ρ c (Proc.devRef .tc main_v6) = W4 m ρ c (Proc.devRef .tc main_v6) from by dsimp only [W5, hostOps1]; after_results).trans
    ((show W4 m ρ c (Proc.devRef .tc main_v6) = W3 m ρ c (Proc.devRef .tc main_v6) from W4_of_ne m ρ c main_v6 (by decide)).trans
    (rfl)))
theorem src_at8 : W8 m ρ c (Proc.devRef .tc main_v3) = src m ρ c :=
  (show W8 m ρ c (Proc.devRef .tc main_v3) = W7 m ρ c (Proc.devRef .tc main_v3) from W8_of_ne m ρ c main_v3 (by decide)).trans
    ((show W7 m ρ c (Proc.devRef .tc main_v3) = W6 m ρ c (Proc.devRef .tc main_v3) from by dsimp only [W7, hostOps2]; after_results).trans
    ((show W6 m ρ c (Proc.devRef .tc main_v3) = W5 m ρ c (Proc.devRef .tc main_v3) from W6_of_ne m ρ c main_v3 (by decide)).trans
    ((show W5 m ρ c (Proc.devRef .tc main_v3) = W4 m ρ c (Proc.devRef .tc main_v3) from by dsimp only [W5, hostOps1]; after_results).trans
    ((show W4 m ρ c (Proc.devRef .tc main_v3) = W3 m ρ c (Proc.devRef .tc main_v3) from W4_of_ne m ρ c main_v3 (by decide)).trans
    (rfl)))))
theorem dst_at8 : W8 m ρ c (Proc.devRef .tc main_v6) = dst m ρ c :=
  (show W8 m ρ c (Proc.devRef .tc main_v6) = W7 m ρ c (Proc.devRef .tc main_v6) from W8_of_ne m ρ c main_v6 (by decide)).trans
    ((show W7 m ρ c (Proc.devRef .tc main_v6) = W6 m ρ c (Proc.devRef .tc main_v6) from by dsimp only [W7, hostOps2]; after_results).trans
    ((show W6 m ρ c (Proc.devRef .tc main_v6) = W5 m ρ c (Proc.devRef .tc main_v6) from W6_of_ne m ρ c main_v6 (by decide)).trans
    ((show W5 m ρ c (Proc.devRef .tc main_v6) = W4 m ρ c (Proc.devRef .tc main_v6) from by dsimp only [W5, hostOps1]; after_results).trans
    ((show W4 m ρ c (Proc.devRef .tc main_v6) = W3 m ρ c (Proc.devRef .tc main_v6) from W4_of_ne m ρ c main_v6 (by decide)).trans
    (rfl)))))
theorem dcol_at5 : W5 m ρ c (Proc.devRef .tc main_v15) = dcol m ρ c :=
  (show W5 m ρ c (Proc.devRef .tc main_v15) = W4 m ρ c (Proc.devRef .tc main_v15) from by dsimp only [W5, hostOps1]; after_results).trans
    ((show W4 m ρ c (Proc.devRef .tc main_v15) = W3 m ρ c (Proc.devRef .tc main_v15) from (W4_arr m ρ c 2).trans (((dat0 (V3 m ρ) c).arrAt_in 2 rfl _).trans (A_eq0 (V3 m ρ) c 2))).trans
    (rfl))
theorem dcol_at7 : W7 m ρ c (Proc.devRef .tc main_v15) = dcol m ρ c :=
  (show W7 m ρ c (Proc.devRef .tc main_v15) = W6 m ρ c (Proc.devRef .tc main_v15) from by dsimp only [W7, hostOps2]; after_results).trans
    ((show W6 m ρ c (Proc.devRef .tc main_v15) = W5 m ρ c (Proc.devRef .tc main_v15) from (W6_arr m ρ c 1).trans (((dat1 (V5 m ρ) c).arrAt_in 1 rfl _).trans (A_eq1 (V5 m ρ) c 1))).trans
    ((show W5 m ρ c (Proc.devRef .tc main_v15) = W4 m ρ c (Proc.devRef .tc main_v15) from by dsimp only [W5, hostOps1]; after_results).trans
    ((show W4 m ρ c (Proc.devRef .tc main_v15) = W3 m ρ c (Proc.devRef .tc main_v15) from (W4_arr m ρ c 2).trans (((dat0 (V3 m ρ) c).arrAt_in 2 rfl _).trans (A_eq0 (V3 m ρ) c 2))).trans
    (rfl))))
theorem dcol_at9 : W9 m ρ c (Proc.devRef .tc main_v15) = dcol m ρ c :=
  (show W9 m ρ c (Proc.devRef .tc main_v15) = W8 m ρ c (Proc.devRef .tc main_v15) from by dsimp only [W9, hostOps3]; after_results).trans
    ((show W8 m ρ c (Proc.devRef .tc main_v15) = W7 m ρ c (Proc.devRef .tc main_v15) from (W8_arr m ρ c 1).trans (((dat2 (V7 m ρ) c).arrAt_in 1 rfl _).trans (A_eq2 (V7 m ρ) c 1))).trans
    ((show W7 m ρ c (Proc.devRef .tc main_v15) = W6 m ρ c (Proc.devRef .tc main_v15) from by dsimp only [W7, hostOps2]; after_results).trans
    ((show W6 m ρ c (Proc.devRef .tc main_v15) = W5 m ρ c (Proc.devRef .tc main_v15) from (W6_arr m ρ c 1).trans (((dat1 (V5 m ρ) c).arrAt_in 1 rfl _).trans (A_eq1 (V5 m ρ) c 1))).trans
    ((show W5 m ρ c (Proc.devRef .tc main_v15) = W4 m ρ c (Proc.devRef .tc main_v15) from by dsimp only [W5, hostOps1]; after_results).trans
    ((show W4 m ρ c (Proc.devRef .tc main_v15) = W3 m ρ c (Proc.devRef .tc main_v15) from (W4_arr m ρ c 2).trans (((dat0 (V3 m ρ) c).arrAt_in 2 rfl _).trans (A_eq0 (V3 m ρ) c 2))).trans
    (rfl))))))
theorem mcol_at9 : W9 m ρ c (Proc.devRef .tc main_v20) = mcol m ρ c :=
  (show W9 m ρ c (Proc.devRef .tc main_v20) = W8 m ρ c (Proc.devRef .tc main_v20) from by dsimp only [W9, hostOps3]; after_results).trans
    ((show W8 m ρ c (Proc.devRef .tc main_v20) = W7 m ρ c (Proc.devRef .tc main_v20) from W8_of_ne m ρ c main_v20 (by decide)).trans
    ((show W7 m ρ c (Proc.devRef .tc main_v20) = W6 m ρ c (Proc.devRef .tc main_v20) from by dsimp only [W7, hostOps2]; after_results).trans
    ((show W6 m ρ c (Proc.devRef .tc main_v20) = W5 m ρ c (Proc.devRef .tc main_v20) from W6_of_ne m ρ c main_v20 (by decide)).trans
    ((show W5 m ρ c (Proc.devRef .tc main_v20) = W4 m ρ c (Proc.devRef .tc main_v20) from by dsimp only [W5, hostOps1]; after_results).trans
    ((show W4 m ρ c (Proc.devRef .tc main_v20) = W3 m ρ c (Proc.devRef .tc main_v20) from W4_of_ne m ρ c main_v20 (by decide)).trans
    (rfl))))))
theorem mcol_at10 : W10 m ρ c (Proc.devRef .tc main_v20) = mcol m ρ c :=
  (show W10 m ρ c (Proc.devRef .tc main_v20) = W9 m ρ c (Proc.devRef .tc main_v20) from (W10_arr m ρ c 3).trans (((dat3 (V9 m ρ) c).arrAt_in 3 rfl _).trans (A_eq3 (V9 m ρ) c 3))).trans
    ((show W9 m ρ c (Proc.devRef .tc main_v20) = W8 m ρ c (Proc.devRef .tc main_v20) from by dsimp only [W9, hostOps3]; after_results).trans
    ((show W8 m ρ c (Proc.devRef .tc main_v20) = W7 m ρ c (Proc.devRef .tc main_v20) from W8_of_ne m ρ c main_v20 (by decide)).trans
    ((show W7 m ρ c (Proc.devRef .tc main_v20) = W6 m ρ c (Proc.devRef .tc main_v20) from by dsimp only [W7, hostOps2]; after_results).trans
    ((show W6 m ρ c (Proc.devRef .tc main_v20) = W5 m ρ c (Proc.devRef .tc main_v20) from W6_of_ne m ρ c main_v20 (by decide)).trans
    ((show W5 m ρ c (Proc.devRef .tc main_v20) = W4 m ρ c (Proc.devRef .tc main_v20) from by dsimp only [W5, hostOps1]; after_results).trans
    ((show W4 m ρ c (Proc.devRef .tc main_v20) = W3 m ρ c (Proc.devRef .tc main_v20) from W4_of_ne m ρ c main_v20 (by decide)).trans
    (rfl)))))))
theorem arg1_at4 : W4 m ρ c (Proc.devRef .tc main_arg1) = m ((c.tc : Thread nD τ).loc main_arg1) :=
  (show W4 m ρ c (Proc.devRef .tc main_arg1) = W3 m ρ c (Proc.devRef .tc main_arg1) from W4_of_ne m ρ c main_arg1 (by decide)).trans
    (arg1_at3 m ρ c)
theorem arg1_at6 : W6 m ρ c (Proc.devRef .tc main_arg1) = m ((c.tc : Thread nD τ).loc main_arg1) :=
  (show W6 m ρ c (Proc.devRef .tc main_arg1) = W5 m ρ c (Proc.devRef .tc main_arg1) from W6_of_ne m ρ c main_arg1 (by decide)).trans
    ((show W5 m ρ c (Proc.devRef .tc main_arg1) = W4 m ρ c (Proc.devRef .tc main_arg1) from by dsimp only [W5, hostOps1]; after_results).trans
    ((show W4 m ρ c (Proc.devRef .tc main_arg1) = W3 m ρ c (Proc.devRef .tc main_arg1) from W4_of_ne m ρ c main_arg1 (by decide)).trans
    (arg1_at3 m ρ c)))
theorem arg2_at4 : W4 m ρ c (Proc.devRef .tc main_arg2) = m ((c.tc : Thread nD τ).loc main_arg2) :=
  (show W4 m ρ c (Proc.devRef .tc main_arg2) = W3 m ρ c (Proc.devRef .tc main_arg2) from W4_of_ne m ρ c main_arg2 (by decide)).trans
    (arg2_at3 m ρ c)
theorem arg2_at6 : W6 m ρ c (Proc.devRef .tc main_arg2) = m ((c.tc : Thread nD τ).loc main_arg2) :=
  (show W6 m ρ c (Proc.devRef .tc main_arg2) = W5 m ρ c (Proc.devRef .tc main_arg2) from W6_of_ne m ρ c main_arg2 (by decide)).trans
    ((show W5 m ρ c (Proc.devRef .tc main_arg2) = W4 m ρ c (Proc.devRef .tc main_arg2) from by dsimp only [W5, hostOps1]; after_results).trans
    ((show W4 m ρ c (Proc.devRef .tc main_arg2) = W3 m ρ c (Proc.devRef .tc main_arg2) from W4_of_ne m ρ c main_arg2 (by decide)).trans
    (arg2_at3 m ρ c)))
theorem arg2_at8 : W8 m ρ c (Proc.devRef .tc main_arg2) = m ((c.tc : Thread nD τ).loc main_arg2) :=
  (show W8 m ρ c (Proc.devRef .tc main_arg2) = W7 m ρ c (Proc.devRef .tc main_arg2) from W8_of_ne m ρ c main_arg2 (by decide)).trans
    ((show W7 m ρ c (Proc.devRef .tc main_arg2) = W6 m ρ c (Proc.devRef .tc main_arg2) from by dsimp only [W7, hostOps2]; after_results).trans
    ((show W6 m ρ c (Proc.devRef .tc main_arg2) = W5 m ρ c (Proc.devRef .tc main_arg2) from W6_of_ne m ρ c main_arg2 (by decide)).trans
    ((show W5 m ρ c (Proc.devRef .tc main_arg2) = W4 m ρ c (Proc.devRef .tc main_arg2) from by dsimp only [W5, hostOps1]; after_results).trans
    ((show W4 m ρ c (Proc.devRef .tc main_arg2) = W3 m ρ c (Proc.devRef .tc main_arg2) from W4_of_ne m ρ c main_arg2 (by decide)).trans
    (arg2_at3 m ρ c)))))
theorem arg6_at10 : W10 m ρ c (Proc.devRef .tc main_arg6) = m ((c.tc : Thread nD τ).loc main_arg6) :=
  (show W10 m ρ c (Proc.devRef .tc main_arg6) = W9 m ρ c (Proc.devRef .tc main_arg6) from W10_of_ne m ρ c main_arg6 (by decide)).trans
    ((show W9 m ρ c (Proc.devRef .tc main_arg6) = W8 m ρ c (Proc.devRef .tc main_arg6) from by dsimp only [W9, hostOps3]; after_results).trans
    ((show W8 m ρ c (Proc.devRef .tc main_arg6) = W7 m ρ c (Proc.devRef .tc main_arg6) from W8_of_ne m ρ c main_arg6 (by decide)).trans
    ((show W7 m ρ c (Proc.devRef .tc main_arg6) = W6 m ρ c (Proc.devRef .tc main_arg6) from by dsimp only [W7, hostOps2]; after_results).trans
    ((show W6 m ρ c (Proc.devRef .tc main_arg6) = W5 m ρ c (Proc.devRef .tc main_arg6) from W6_of_ne m ρ c main_arg6 (by decide)).trans
    ((show W5 m ρ c (Proc.devRef .tc main_arg6) = W4 m ρ c (Proc.devRef .tc main_arg6) from by dsimp only [W5, hostOps1]; after_results).trans
    ((show W4 m ρ c (Proc.devRef .tc main_arg6) = W3 m ρ c (Proc.devRef .tc main_arg6) from W4_of_ne m ρ c main_arg6 (by decide)).trans
    (arg6_at3 m ρ c)))))))
theorem arg4_at10 : W10 m ρ c (Proc.devRef .tc main_arg4) = m ((c.tc : Thread nD τ).loc main_arg4) :=
  (show W10 m ρ c (Proc.devRef .tc main_arg4) = W9 m ρ c (Proc.devRef .tc main_arg4) from W10_of_ne m ρ c main_arg4 (by decide)).trans
    ((show W9 m ρ c (Proc.devRef .tc main_arg4) = W8 m ρ c (Proc.devRef .tc main_arg4) from by dsimp only [W9, hostOps3]; after_results).trans
    ((show W8 m ρ c (Proc.devRef .tc main_arg4) = W7 m ρ c (Proc.devRef .tc main_arg4) from W8_of_ne m ρ c main_arg4 (by decide)).trans
    ((show W7 m ρ c (Proc.devRef .tc main_arg4) = W6 m ρ c (Proc.devRef .tc main_arg4) from by dsimp only [W7, hostOps2]; after_results).trans
    ((show W6 m ρ c (Proc.devRef .tc main_arg4) = W5 m ρ c (Proc.devRef .tc main_arg4) from W6_of_ne m ρ c main_arg4 (by decide)).trans
    ((show W5 m ρ c (Proc.devRef .tc main_arg4) = W4 m ρ c (Proc.devRef .tc main_arg4) from by dsimp only [W5, hostOps1]; after_results).trans
    ((show W4 m ρ c (Proc.devRef .tc main_arg4) = W3 m ρ c (Proc.devRef .tc main_arg4) from W4_of_ne m ρ c main_arg4 (by decide)).trans
    (arg4_at3 m ρ c)))))))
theorem arg3_at11 : W11 m ρ c (Proc.devRef .tc main_arg3) = m ((c.tc : Thread nD τ).loc main_arg3) :=
  (show W11 m ρ c (Proc.devRef .tc main_arg3) = W10 m ρ c (Proc.devRef .tc main_arg3) from by dsimp only [W11, hostOps4]; after_results).trans
    ((show W10 m ρ c (Proc.devRef .tc main_arg3) = W9 m ρ c (Proc.devRef .tc main_arg3) from W10_of_ne m ρ c main_arg3 (by decide)).trans
    ((show W9 m ρ c (Proc.devRef .tc main_arg3) = W8 m ρ c (Proc.devRef .tc main_arg3) from by dsimp only [W9, hostOps3]; after_results).trans
    ((show W8 m ρ c (Proc.devRef .tc main_arg3) = W7 m ρ c (Proc.devRef .tc main_arg3) from W8_of_ne m ρ c main_arg3 (by decide)).trans
    ((show W7 m ρ c (Proc.devRef .tc main_arg3) = W6 m ρ c (Proc.devRef .tc main_arg3) from by dsimp only [W7, hostOps2]; after_results).trans
    ((show W6 m ρ c (Proc.devRef .tc main_arg3) = W5 m ρ c (Proc.devRef .tc main_arg3) from W6_of_ne m ρ c main_arg3 (by decide)).trans
    ((show W5 m ρ c (Proc.devRef .tc main_arg3) = W4 m ρ c (Proc.devRef .tc main_arg3) from by dsimp only [W5, hostOps1]; after_results).trans
    ((show W4 m ρ c (Proc.devRef .tc main_arg3) = W3 m ρ c (Proc.devRef .tc main_arg3) from W4_of_ne m ρ c main_arg3 (by decide)).trans
    (arg3_at3 m ρ c))))))))

/-! ## What each stretch hands to its region -/

set_option maxHeartbeats 4000000 in
/-- Region 0 reads the features as launched, layer 0's weights and the scale column. -/
theorem wt0_at3 : W3 m ρ c (Proc.devRef .tc main_v22) = wt0 m c := by
  dsimp only [W3, W2, W1, hostOps0_2, hostOps0_1, hostOps0]; after_results; try rfl

set_option maxHeartbeats 4000000 in
/-- Region 1's aggregate: region 0's rows, gathered and summed over the edges. -/
theorem agg_at5 : W5 m ρ c (Proc.devRef .tc main_v33) = segSum m ρ c (W4 m ρ c (Proc.devRef .tc main_v23)) := by
  dsimp only [W5, hostOps1]; after_results_simp; rw [src_at4, dst_at4]; try rfl
set_option maxHeartbeats 4000000 in
theorem bias_at5 : W5 m ρ c (Proc.devRef .tc main_v38) = bias0 m c := by
  dsimp only [W5, hostOps1]; after_results_simp; rw [arg2_at4]; try rfl
set_option maxHeartbeats 4000000 in
theorem wt_at5 : W5 m ρ c (Proc.devRef .tc main_v37) = wt1 m c := by
  dsimp only [W5, hostOps1]; after_results_simp; rw [arg1_at4]; try rfl

set_option maxHeartbeats 4000000 in
/-- Region 2's aggregate, bias and weights. -/
theorem agg_at7 : W7 m ρ c (Proc.devRef .tc main_v49) = segSum m ρ c (W6 m ρ c (Proc.devRef .tc main_v39)) := by
  dsimp only [W7, hostOps2]; after_results_simp; rw [src_at6, dst_at6]; try rfl
set_option maxHeartbeats 4000000 in
theorem bias_at7 : W7 m ρ c (Proc.devRef .tc main_v54) = bias1 m c := by
  dsimp only [W7, hostOps2]; after_results_simp; rw [arg2_at6]; try rfl
set_option maxHeartbeats 4000000 in
theorem wt_at7 : W7 m ρ c (Proc.devRef .tc main_v53) = wt2 m c := by
  dsimp only [W7, hostOps2]; after_results_simp; rw [arg1_at6]; try rfl

set_option maxHeartbeats 4000000 in
/-- Region 3's aggregate and bias. -/
theorem agg_at9 : W9 m ρ c (Proc.devRef .tc main_v65) = segSum m ρ c (W8 m ρ c (Proc.devRef .tc main_v55)) := by
  dsimp only [W9, hostOps3]; after_results_simp; rw [src_at8, dst_at8]; try rfl
set_option maxHeartbeats 4000000 in
theorem bias_at9 : W9 m ρ c (Proc.devRef .tc main_v68) = bias2 m c := by
  dsimp only [W9, hostOps3]; after_results_simp; rw [arg2_at8]; try rfl

/-- Each graph's feature sums: the masked activations summed into their node's graph. -/
def pool (x : Vec Ideal S50000x128 .f32) : Vec Ideal S512x128 .f32 :=
  Host.scatterAdd (F := Ideal) scatter_S512x128_S50000x1_S50000x128_1_0_0_1
    (broadcastInDim S512x128 ![] bcast_S_S512x128 (constant S_ .f32 0x00000000#32))
    (broadcastInDim S50000x1 ![0] bcast_S50000_S50000x1_0 (m ((c.tc : Thread nD τ).loc main_arg6))) x
/-- Each graph's count of unmasked nodes, as a column. -/
def count : Vec Ideal S512x1 .f32 :=
  shapeCast S512x1 (Host.scatterAdd (F := Ideal) scatter_S512_S50000x1_S50000_n_0_0_1
    (broadcastInDim S512 ![] bcast_S_S512 (constant S_ .f32 0x00000000#32))
    (broadcastInDim S50000x1 ![0] bcast_S50000_S50000x1_0 (m ((c.tc : Thread nD τ).loc main_arg6)))
    (shapeCast S50000 (mcol m ρ c) shapeCasts_S50000x1_S50000)) shapeCasts_S512_S512x1

set_option maxHeartbeats 4000000 in
/-- Region 4 reads the pooled sums, the counts, the head's weights as launched and its bias as a 1 × 1 array. -/
theorem sums_at11 : W11 m ρ c (Proc.devRef .tc main_v72) = pool m c (W10 m ρ c (Proc.devRef .tc main_v69)) := by
  dsimp only [W11, hostOps4]; after_results_simp; rw [arg6_at10]; try rfl
set_option maxHeartbeats 4000000 in
theorem count_at11 : W11 m ρ c (Proc.devRef .tc main_v77) = count m ρ c := by
  dsimp only [W11, hostOps4]; after_results_simp; rw [arg6_at10, mcol_at10]; try rfl
set_option maxHeartbeats 4000000 in
theorem hbias_at11 : W11 m ρ c (Proc.devRef .tc main_v78) = shapeCast S1x1 (m ((c.tc : Thread nD τ).loc main_arg4)) shapeCasts_S1_S1x1 := by
  dsimp only [W11, hostOps4]; after_results_simp; rw [arg4_at10]; try rfl

set_option maxHeartbeats 4000000 in
/-- The result is region 4's column read as a vector. -/
theorem result_at13 : W13 m ρ c (Proc.devRef .tc main_v80) = shapeCast S512 (W12 m ρ c (Proc.devRef .tc main_v79)) shapeCasts_S512x1_S512 := by
  dsimp only [W13, hostOps5]; after_results_simp; try rfl

end Cert.KernelIdeal.Host

end
-- ==== Proof.KCommon.lean ====
/-
  Shared reading lemmas for the five kernel regions: a column broadcast read at an index, the zero offsets of a
  whole-block access, and each of the two matrix products (a [5000,128] block times a [128,128] matrix; a [512,128]
  array times a [128,1] column) read at an index as the sum over the contracted axis.
-/
import proofs.«146795_j3770981286765_2_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Regions

open Cert.KernelIdeal Cert.KernelIdeal.Gen Idealize.ShloMosaic Idealize.ShloMosaic.ValueIdx

/-- The offsets of an access of a whole rank-2 block are zero on both axes. -/
theorem hz : (![0, 0] : Fin 2 → Nat) = fun _ => 0 := funext fun a => by fin_cases a <;> rfl

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products at an index

The operand indices of a product that contracts the left operand's axis 1 with the right operand's axis 0: the output's row
and the contracted position on the left, the contracted position and the output's column on the right. -/

theorem matmul_5000_lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem matmul_5000_lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem matmul_5000_rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem matmul_5000_rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a `[5000, 128]` block and a `[128, 128]` matrix into a zero accumulator, at `(p, q)`: row `p` of
    the block against column `q` of the matrix, summed over the 128 contracted positions. -/
theorem matmul_5000_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact matmul_5000_lhs0 _ _
    | ⟨1, _⟩ => exact (matmul_5000_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (matmul_5000_rhs0 _ _).trans hk
    | ⟨1, _⟩ => exact matmul_5000_rhs1 _ _)
  rw [el, er]

theorem matmul_512_lhs0 (i : S512x1.Idx) (q : dot_S512x128_S128x1_S512x1_1_0_0_1_n_n.contr.Idx) : (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
theorem matmul_512_lhs1 (i : S512x1.Idx) (q : dot_S512x128_S128x1_S512x1_1_0_0_1_n_n.contr.Idx) : (dot_S512x128_S128x1_S512x1_1_0_0_1_n_n.lhsIdx i q 1).val = (q ⟨0, by decide⟩).val :=
  dot_S512x128_S128x1_S512x1_1_0_0_1_n_n.lhsIdx_val_of_single rfl i q
theorem matmul_512_rhs0 (i : S512x1.Idx) (q : dot_S512x128_S128x1_S512x1_1_0_0_1_n_n.contr.Idx) : (dot_S512x128_S128x1_S512x1_1_0_0_1_n_n.rhsIdx i q 0).val = (q ⟨0, by decide⟩).val :=
  dot_S512x128_S128x1_S512x1_1_0_0_1_n_n.rhsIdx_val_of_single rfl i q
theorem matmul_512_rhs1 (i : S512x1.Idx) (q : dot_S512x128_S128x1_S512x1_1_0_0_1_n_n.contr.Idx) : (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl

/-- The product of a `[512, 128]` array and a `[128, 1]` column into a zero accumulator, at `(p, q)`. -/
theorem matmul_512_apply {φ₁ φ₂ : FTy} (l : FVec Ideal S512x128 φ₁) (r : FVec Ideal S128x1 φ₂) (p : Fin 512) (q : Fin 1) :
    matmul dot_S512x128_S128x1_S512x1_1_0_0_1_n_n none l r (constant S512x1 .f32 0x00000000#32) (ix2 p q)
      = ∑ k : Fin 128, l (ix2 p k) * r (ix2 k q) := by
  refine (Ideal.matmul_constant_zero_apply dot_S512x128_S128x1_S512x1_1_0_0_1_n_n none l r (ix2 p q)).trans ?_
  rw [← Equiv.sum_comp (contrEquiv1 dot_S512x128_S128x1_S512x1_1_0_0_1_n_n 128 rfl rfl).symm]
  refine Finset.sum_congr rfl fun k _ => ?_
  have hk := contrEquiv1_symm_val dot_S512x128_S128x1_S512x1_1_0_0_1_n_n 128 rfl rfl k
  have el : dot_S512x128_S128x1_S512x1_1_0_0_1_n_n.lhsIdx (ix2 p q) ((contrEquiv1 dot_S512x128_S128x1_S512x1_1_0_0_1_n_n 128 rfl rfl).symm k) = ix2 p k := funext fun a => Fin.ext (by
    match a with
    | ⟨0, _⟩ => exact matmul_512_lhs0 _ _
    | ⟨1, _⟩ => exact (matmul_512_lhs1 _ _).trans hk)
  have er : dot_S512x128_S128x1_S512x1_1_0_0_1_n_n.rhsIdx (ix2 p q) ((contrEquiv1 dot_S512x128_S128x1_S512x1_1_0_0_1_n_n 128 rfl rfl).symm k) = ix2 k q := funext fun a => Fin.ext (by
    match a with
    | ⟨0, _⟩ => exact (matmul_512_rhs0 _ _).trans hk
    | ⟨1, _⟩ => exact matmul_512_rhs1 _ _)
  rw [el, er]

end Cert.KernelIdeal.Regions

end
-- ==== Proof.Spec.lean ====
/-
  The shared vocabulary of this certificate: what each of the five kernel regions computes, as whole-array
  functions on the extended reals over literal shapes, index by index.

  A graph-convolution layer multiplies the node features by a weight matrix and sums, into each node, the rows of
  its in-neighbours scaled by `d[src] · d[dst]` (`d` the inverse square root of the in-degree). The kernel scales a
  row by `d` of its own node BEFORE the neighbours' rows are gathered (`scaledLin`) and by `d` of the receiving node
  AFTER they are summed (`act` multiplies the aggregate by `d` before adding the bias), so the per-edge product
  disappears. `fusedLayer` is one inner layer (activation of the previous aggregate, then the next scaled product),
  `finalAct` the last activation times the padding mask, `head` the mean pool's quotient followed by the linear head.
-/
import Idealize.ShloMosaic.PureOps.Ideal
import Idealize.ShloMosaic.Lib.ValueIdx

noncomputable section

open scoped BigOperators

namespace Cert.Gcn

open Idealize.ShloMosaic Idealize.ShloMosaic.ValueIdx

/-- An `a × b` array of extended reals. -/
abbrev Mat (a b : Nat) : Type := (⟨2, ![a, b]⟩ : Shape).Idx → EReal

/-- The float pattern of `1.0`, kept unevaluated: both programs clamp the pool's count below by this word. -/
abbrev one32 : EReal := Ideal.ofBits .f32 0x3F800000#32

/-- Row `r` of `x · w`, times the row's scale `d r`. -/
def scaledLin (x : Mat 50000 128) (w : Mat 128 128) (d : Mat 50000 1) : Mat 50000 128 :=
  fun i => (∑ k : Fin 128, x (ix2 (i 0) k) * w (ix2 k (i 1))) * d (ix2 (i 0) 0)

/-- The activation of an aggregate that still owes its receiving node's scale: `max (agg · d + b) 0`. -/
def act (agg : Mat 50000 128) (d : Mat 50000 1) (b : Mat 1 128) : Mat 50000 128 :=
  fun i => max (agg i * d (ix2 (i 0) 0) + b (ix2 0 (i 1))) 0

/-- An inner layer: the activation of the previous aggregate, multiplied by the next weights, rows scaled. -/
def fusedLayer (agg : Mat 50000 128) (d : Mat 50000 1) (b : Mat 1 128) (w : Mat 128 128) : Mat 50000 128 :=
  scaledLin (act agg d b) w d

/-- The last activation, rows of padding nodes zeroed by the mask. -/
def finalAct (agg : Mat 50000 128) (d : Mat 50000 1) (b : Mat 1 128) (msk : Mat 50000 1) : Mat 50000 128 :=
  fun i => act agg d b i * msk (ix2 (i 0) 0)

/-- The head: each graph's feature sums over its node count (at least one), times the head's weights, plus its bias. -/
def head (sums : Mat 512 128) (cnt : Mat 512 1) (w : Mat 128 1) (b : Mat 1 1) : Mat 512 1 :=
  fun i => (∑ k : Fin 128, Ideal.div (sums (ix2 (i 0) k)) (max (cnt (ix2 (i 0) 0)) one32) * w (ix2 k 0)) + b (ix2 0 0)

end Cert.Gcn

end
-- ==== Proof.KRegion0.lean ====
/-
  Region 0 (the scaled product): what the region leaves in its output array, as one function of its three input
  arrays. The body's value at an index of its block; each input block read where the output's block sits; the ten
  row blocks cover the array.
-/
import proofs.«146795_j3770981286765_2_alg».proof.Proof.Gen.KernelIdeal.Frame
import proofs.«146795_j3770981286765_2_alg».proof.Proof.KCommon
import proofs.«146795_j3770981286765_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

/-- The body's value at `(p, q)` of its block: row `p` of the feature block against column `q` of the weights, times
    the row's scale. -/
theorem k0_pay1_apply (v0 : Vec Ideal S5000x128 .f32) (v2 : Vec Ideal S128x128 .f32) (v6 : Vec Ideal S5000x1 .f32)
    (p : Fin 5000) (q : Fin 128) :
    k0_pay1 (F := Ideal) v0 v2 v6 (ix2 p q) = (∑ k : Fin 128, v0 (ix2 p k) * v2 (ix2 k q)) * v6 (ix2 p 0) := by
  unfold k0_pay1
  rw [mulf_apply, broadcastTo_a1_ab_apply, shapeCast_self, shapeCast_self, matmul_5000_apply]
  simp only [truncf_apply, shapeCast_self]

/-- The windows' block indices at grid point `t`, decided over the ten points: the feature, scale and output
    windows sit at row block `t`, the weights at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The feature window's block at point `t` holds rows `5000 t … 5000 t + 4999` of the feature array. -/
theorem blk0_0 (c : Dev nD) (t : Fin cfg0.N) (p : Fin 5000) (k : Fin 128) (r : Fin 50000) (hr : r.val = t.val * 5000 + p.val) :
    (iblk0 (F := Ideal) V c 0 t : Vec Ideal S5000x128 .f32) (ix2 p k) = (V c main_arg0 : S50000x128.Idx → EReal) (ix2 r k) := by
  obtain ⟨e0, e1, -⟩ := idx_facts0 t
  unfold iblk0
  rw [View.read_apply]
  show V c main_arg0 _ = V c main_arg0 _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weights' window holds the whole weight matrix at every point. -/
theorem blk0_1 (c : Dev nD) (t : Fin cfg0.N) (k : Fin 128) (q : Fin 128) :
    (iblk0 (F := Ideal) V c 1 t : Vec Ideal S128x128 .f32) (ix2 k q) = (V c main_v22 : S128x128.Idx → EReal) (ix2 k q) := by
  obtain ⟨-, -, e2, e3, -⟩ := idx_facts0 t
  unfold iblk0
  rw [View.read_apply]
  show V c main_v22 _ = V c main_v22 _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The scale window's block at point `t` holds rows `5000 t … 5000 t + 4999` of the scale column. -/
theorem blk0_2 (c : Dev nD) (t : Fin cfg0.N) (p : Fin 5000) (r : Fin 50000) (hr : r.val = t.val * 5000 + p.val) :
    (iblk0 (F := Ideal) V c 2 t : Vec Ideal S5000x1 .f32) (ix2 p 0) = (V c main_v15 : S50000x1.Idx → EReal) (ix2 r 0) := by
  obtain ⟨-, -, -, -, e4, e5, -⟩ := idx_facts0 t
  unfold iblk0
  rw [View.read_apply]
  show V c main_v15 _ = V c main_v15 _
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-- What point `t` writes back is block `t` of the scaled product of the three arrays as the region finds them. -/
theorem flushed0_eq (c : Dev nD) (t : Fin cfg0.N) :
    (dat0 (F := Ideal) V c).flushed 3 t
      = ((cfg0.win 3).blk t).view.read (Elt Ideal) (Cert.Gcn.scaledLin (V c main_arg0) (V c main_v22) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  obtain ⟨-, -, -, -, -, -, e6, e7⟩ := idx_facts0 t
  have hN : cfg0.N = 10 := N_0
  have ht : t.val < 10 := hN ▸ t.isLt
  obtain ⟨r, hr⟩ : ∃ r : Fin 50000, r.val = t.val * 5000 + p.val := ⟨⟨t.val * 5000 + p.val, by have := p.isLt; omega⟩, rfl⟩
  have hemb : ((cfg0.win 3).blk t).view.emb (ix2 p q) = (ix2 r q : S50000x128.Idx) := by
    funext a; apply Fin.ext
    match a with
    | ⟨0, _⟩ => show win0_3.index t (0 : Fin 2) * 5000 + 1 * p.val = r.val; omega
    | ⟨1, _⟩ => show win0_3.index t (1 : Fin 2) * 128 + 1 * q.val = q.val; omega
  rw [View.read_apply, hemb]
  show k0_pay1 (F := Ideal) _ _ _ (ix2 p q) = Cert.Gcn.scaledLin (V c main_arg0) (V c main_v22) (V c main_v15) (ix2 r q)
  rw [k0_pay1_apply, blk0_2 V c t p r hr]
  unfold Cert.Gcn.scaledLin
  refine congrArg (· * _) (Finset.sum_congr rfl fun k _ => ?_)
  rw [blk0_0 V c t p k r hr, blk0_1 V c t k q]

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v23).slice (win0_3.rect t)).set ↔ _
  rw [View.set_slice_whole, Rect.mem_set_unit]
  exact Iff.rfl

/-- Row `r` of the output array is in the block of point `r / 5000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- REGION 0: after the region its output array is the scaled product of the feature array, the weights and the scale
    column as the region found them. -/
theorem region0_final (c : Dev nD) :
    (dat0 (F := Ideal) V c).arrAt 3 cfg0.N = Cert.Gcn.scaledLin (V c main_arg0) (V c main_v22) (V c main_v15) :=
  (dat0 V c).arrAt_eq_of_cover 3 _ (fun t _ => flushed0_eq V c t) cover0

end Cert.KernelIdeal.Regions

end
-- ==== Proof.KRegion1.lean ====
/-
  Region 1 (an inner layer): what the region leaves in its output array, as one function of its four input arrays.
  The body's value at an index of its block; each input block read where the output's block sits; the ten row blocks
  cover the array.
-/
import proofs.«146795_j3770981286765_2_alg».proof.Proof.Gen.KernelIdeal.Frame
import proofs.«146795_j3770981286765_2_alg».proof.Proof.KCommon
import proofs.«146795_j3770981286765_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

/-- The body's value at `(p, q)` of its block: row `p` of the activated aggregate (the aggregate times the row's scale,
    plus the bias, clamped below by zero) against column `q` of the weights, times the row's scale. -/
theorem k1_pay1_apply (v0 : Vec Ideal S5000x1 .f32) (v4 : Vec Ideal S1x128 .f32) (v8 : Vec Ideal S5000x128 .f32) (v15 : Vec Ideal S128x128 .f32)
    (p : Fin 5000) (q : Fin 128) :
    k1_pay1 (F := Ideal) v0 v4 v8 v15 (ix2 p q)
      = (∑ k : Fin 128, max (v8 (ix2 p k) * v0 (ix2 p 0) + v4 (ix2 0 k)) 0 * v15 (ix2 k q)) * v0 (ix2 p 0) := by
  unfold k1_pay1
  rw [mulf_apply, matmul_5000_apply, broadcastTo_a1_ab_apply]
  simp only [shapeCast_self]
  refine congrArg (· * _) (Finset.sum_congr rfl fun k _ => ?_)
  rw [truncf_apply, truncf_apply, maximumf_apply, addf_apply, mulf_apply, broadcast_apply, broadcastTo_a1_ab_apply, broadcastTo_1b_ab_apply]
  show max _ (Ideal.ofBits .f32 0x00000000#32) * _ = _
  rw [Ideal.ofBits_zero_f32]

/-- The windows' block indices at grid point `t`, decided over the ten points: the aggregate, scale and output windows
    sit at row block `t`, the bias and the weights at their one block. -/
theorem idx_facts1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

variable (V : (c : Dev nD) → (b : Ref sig .tc) → Buf (Elt Ideal) ((c : Thread nD τ).loc b))

/-- The aggregate window's block at point `t` holds rows `5000 t … 5000 t + 4999` of the aggregate. -/
theorem blk1_0 (c : Dev nD) (t : Fin cfg1.N) (p : Fin 5000) (k : Fin 128) (r : Fin 50000) (hr : r.val = t.val * 5000 + p.val) :
    (iblk1 (F := Ideal) V c 0 t : Vec Ideal S5000x128 .f32) (ix2 p k) = (V c main_v33 : S50000x128.Idx → EReal) (ix2 r k) := by
  obtain ⟨ea, eb, -⟩ := idx_facts1 t
  unfold iblk1
  rw [View.read_apply]
  show V c main_v33 _ = V c main_v33 _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The scale window's block at point `t` holds rows `5000 t … 5000 t + 4999` of the scale column. -/
theorem blk1_1 (c : Dev nD) (t : Fin cfg1.N) (p : Fin 5000) (r : Fin 50000) (hr : r.val = t.val * 5000 + p.val) :
    (iblk1 (F := Ideal) V c 1 t : Vec Ideal S5000x1 .f32) (ix2 p 0) = (V c main_v15 : S50000x1.Idx → EReal) (ix2 r 0) := by
  obtain ⟨-, -, ea, eb, -⟩ := idx_facts1 t
  unfold iblk1
  rw [View.read_apply]
  show V c main_v15 _ = V c main_v15 _
  refine congrArg _ (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- The bias window holds the whole bias row at every point. -/
theorem blk1_2 (c : Dev nD) (t : Fin cfg1.N) (q : Fin 128) :
    (iblk1 (F := Ideal) V c 2 t : Vec Ideal S1x128 .f32) (ix2 0 q) = (V c main_v38 : S1x128.Idx → EReal) (ix2 0 q) := by
  obtain ⟨-, -, -, -, ea, eb, -⟩ := idx_facts1 t
  unfold iblk1
  rw [View.read_apply]
  show V c main_v38 _ = V c main_v38 _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- The weights' window holds the whole weight matrix at every point. -/
theorem blk1_3 (c : Dev nD) (t : Fin cfg1.N) (k : Fin 128) (q : Fin 128) :
    (iblk1 (F := Ideal) V c 3 t : Vec Ideal S128x128 .f32) (ix2 k q) = (V c main_v37 : S128x128.Idx → EReal) (ix2 k q) := by
  obtain ⟨-, -, -, -, -, -, ea, eb, -⟩ := idx_facts1 t
  unfold iblk1
  rw [View.read_apply]
  show V c main_v37 _ = V c main_v37 _
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- What point `t` writes back is block `t` of the inner layer of the four arrays as the region finds them. -/
theorem flushed1_eq (c : Dev nD) (t : Fin cfg1.N) :
    (dat1 (F := Ideal) V c).flushed 4 t
      = ((cfg1.win 4).blk t).view.read (Elt Ideal) (Cert.Gcn.fusedLayer (V c main_v33) (V c main_v15) (V c main_v38) (V c main_v37)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz, View.ld_unit_zero (S := S5000x1) hz, View.ld_unit_zero (S := S128x128) hz]
  funext j
  obtain ⟨p, q, rfl⟩ : ∃ (p : Fin 5000) (q : Fin 128), j = ix2 p q := ⟨j 0, j 1, eq_ix2 j⟩
  obtain ⟨-, -, -, -, -, -, -, -, ea, eb⟩ := idx_facts1 t
  have hN : cfg1.N = 10 := N_1
  have ht : t.val < 10 := hN ▸ t.isLt
  obtain ⟨r, hr⟩ : ∃ r : Fin 50000, r.val = t.val * 5000 + p.val := ⟨⟨t.val * 5000 + p.val, by have := p.isLt; omega⟩, rfl⟩
  have hemb : ((cfg1.win 4).blk t).view.emb (ix2 p q) = (ix2 r q : S50000x128.Idx) := by
    funext a; apply Fin.ext
    match a with
    | ⟨0, _⟩ => show win1_4.index t (0 : Fin 2) * 5000 + 1 * p.val = r.val; omega
    | ⟨1, _⟩ => show win1_4.index t (1 : Fin 2) * 128 + 1 * q.val = q.val; omega
  rw [View.read_apply, hemb]
  show k1_pay1 (F := Ideal) _ _ _ _ (ix2 p q) = Cert.Gcn.fusedLayer (V c main_v33) (V c main_v15) (V c main_v38) (V c main_v37) (ix2 r q)
  rw [k1_pay1_apply, blk1_1 V c t p r hr]
  unfold Cert.Gcn.fusedLayer Cert.Gcn.scaledLin
  refine congrArg (· * _) (Finset.sum_congr rfl fun k _ => ?_)
  rw [blk1_0 V c t p k r hr, blk1_2 V c t k, blk1_3 V c t k q]
  rfl

/-- An index of the output array is in point `t`'s block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v39).slice (win1_4.rect t)).set ↔ _
  rw [View.set_slice_whole, Rect.mem_set_unit]
  exact Iff.rfl

/-- Row `r` of the output array is in the block of point `r / 5000`. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, ea, eb⟩ := idx_facts1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- REGION 1: after the region its output array is the inner layer of the aggregate, the scale column, the bias row and
    the weights as the region found them. -/
theorem region1_final (c : Dev nD) :
    (dat1 (F := Ideal) V c).arrAt 4 cfg1.N = Cert.Gcn.fusedLayer (V c main_v33) (V c main_v15) (V c main_v38) (V c main_v37) :=
  (dat1 V c).arrAt_eq_of_cover 4 _ (fun t _ => flushed1_eq V c t) cover1

end Cert.KernelIdeal.Regions

end
-- ==== Proof.KRegion2.lean ====
/-
  Region 2 (an inner layer): what the region leaves in its output array, as one function of its four input arrays.
  The body's value at an index of its block; each input block read where the output's block sits; the ten row blocks
  cover the array.
-/
import proofs.«146795_j3770981286765_2_alg».proof.Proof.Gen.KernelIdeal.Frame
import proofs.«146795_j3770981286765_2_alg».proof.Proof.KCommon
import proofs.«146795_j3770981286765_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

/-- The body's value at `(p, q)` of its block: row `p` of the activated aggregate (the aggregate times the row's scale,
    plus the bias, clamped below by zero) against column `q` of the weights, times the row's scale. -/
theorem k2_pay1_apply (v0 : Vec Ideal S5000x1 .f32) (v4 : Vec Ideal S1x128 .f32) (v8 : Vec Ideal S5000x128 .f32) (v15 : Vec Ideal S128x128 .f32)
    (p : Fin 5000) (q : Fin 128) :
    k2_pay1 (F := Ideal) v0 v4 v8 v15 (ix2 p q)
      = (∑ k : Fin 128, max (v8 (ix2 p k) * v0 (ix2 p 0) + v4 (ix2 0 k)) 0 * v15 (ix2 k q)) * v0 (ix2 p 0) := by
  unfold k2_pay1
  rw [mulf_apply, matmul_5000_apply, broadcastTo_a1_ab_apply]
  simp only [shapeCast_self]
  refine congrArg (· * _) (Finset.sum_congr rfl fun k _ => ?_)
  rw [truncf_apply, truncf_apply, maximumf_apply, addf_apply, mulf_apply, broadcast_apply, broadcastTo_a1_ab_apply, broadcastTo_1b_ab_apply]
  show max _ (Ideal.ofBits .f32 0x00000000#32) * _ = _
  rw [Ideal.ofBits_zero_f32]

/-- The windows' block indices at grid point `t`, decided over the ten points: the aggregate, scale and output windows
    sit at row block `t`, the bias and the weights at their one block. -/
theorem idx_facts2 : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

variable (V : (c : Dev nD) → (b : Ref sig .tc) → Buf (Elt Ideal) ((c : Thread nD τ).loc b))

/-- The aggregate window's block at point `t` holds rows `5000 t … 5000 t + 4999` of the aggregate. -/
theorem blk2_0 (c : Dev nD) (t : Fin cfg2.N) (p : Fin 5000) (k : Fin 128) (r : Fin 50000) (hr : r.val = t.val * 5000 + p.val) :
    (iblk2 (F := Ideal) V c 0 t : Vec Ideal S5000x128 .f32) (ix2 p k) = (V c main_v49 : S50000x128.Idx → EReal) (ix2 r k) := by
  obtain ⟨ea, eb, -⟩ := idx_facts2 t
  unfold iblk2
  rw [View.read_apply]
  show V c main_v49 _ = V c main_v49 _
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The scale window's block at point `t` holds rows `5000 t … 5000 t + 4999` of the scale column. -/
theorem blk2_1 (c : Dev nD) (t : Fin cfg2.N) (p : Fin 5000) (r : Fin 50000) (hr : r.val = t.val * 5000 + p.val) :
    (iblk2 (F := Ideal) V c 1 t : Vec Ideal S5000x1 .f32) (ix2 p 0) = (V c main_v15 : S50000x1.Idx → EReal) (ix2 r 0) := by
  obtain ⟨-, -, ea, eb, -⟩ := idx_facts2 t
  unfold iblk2
  rw [View.read_apply]
  show V c main_v15 _ = V c main_v15 _
  refine congrArg _ (funext fun a => Fin.ext ?_)
  match a with
  | ⟨0, _⟩ => show win2_1.index t (0 : Fin 2) * 5000 + 1 * p.val = r.val; omega
  | ⟨1, _⟩ => show win2_1.index t (1 : Fin 2) * 1 + 1 * 0 = 0; omega

/-- The bias window holds the whole bias row at every point. -/
theorem blk2_2 (c : Dev nD) (t : Fin cfg2.N) (q : Fin 128) :
    (iblk2 (F := Ideal) V c 2 t : Vec Ideal S1x128 .f32) (ix2 0 q) = (V c main_v54 : S1x128.Idx → EReal) (ix2 0 q) := by
  obtain ⟨-, -, -, -, ea, eb, -⟩ := idx_facts2 t
  unfold iblk2
  rw [View.read_apply]
  show V c main_v54 _ = V c main_v54 _
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-- The weights' window holds the whole weight matrix at every point. -/
theorem blk2_3 (c : Dev nD) (t : Fin cfg2.N) (k : Fin 128) (q : Fin 128) :
    (iblk2 (F := Ideal) V c 3 t : Vec Ideal S128x128 .f32) (ix2 k q) = (V c main_v53 : S128x128.Idx → EReal) (ix2 k q) := by
  obtain ⟨-, -, -, -, -, -, ea, eb, -⟩ := idx_facts2 t
  unfold iblk2
  rw [View.read_apply]
  show V c main_v53 _ = V c main_v53 _
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- What point `t` writes back is block `t` of the inner layer of the four arrays as the region finds them. -/
theorem flushed2_eq (c : Dev nD) (t : Fin cfg2.N) :
    (dat2 (F := Ideal) V c).flushed 4 t
      = ((cfg2.win 4).blk t).view.read (Elt Ideal) (Cert.Gcn.fusedLayer (V c main_v49) (V c main_v15) (V c main_v54) (V c main_v53)) := by
  show (cfg2.win 4).cut (grid2.coords t) ((dat2 V c).after 4 t) = _
  rw [after2_4]
  unfold out2_4
  rw [View.canon_unit_zero hz]
  simp only [View.ld_unit_zero (S := S5000x128) hz, View.ld_unit_zero (S := S1x128) hz, View.ld_unit_zero (S := S5000x1) hz, View.ld_unit_zero (S := S128x128) hz]
  funext j
  obtain ⟨p, q, rfl⟩ : ∃ (p : Fin 5000) (q : Fin 128), j = ix2 p q := ⟨j 0, j 1, eq_ix2 j⟩
  obtain ⟨-, -, -, -, -, -, -, -, ea, eb⟩ := idx_facts2 t
  have hN : cfg2.N = 10 := N_2
  have ht : t.val < 10 := hN ▸ t.isLt
  obtain ⟨r, hr⟩ : ∃ r : Fin 50000, r.val = t.val * 5000 + p.val := ⟨⟨t.val * 5000 + p.val, by have := p.isLt; omega⟩, rfl⟩
  have hemb : ((cfg2.win 4).blk t).view.emb (ix2 p q) = (ix2 r q : S50000x128.Idx) := by
    funext a; apply Fin.ext
    match a with
    | ⟨0, _⟩ => show win2_4.index t (0 : Fin 2) * 5000 + 1 * p.val = r.val; omega
    | ⟨1, _⟩ => show win2_4.index t (1 : Fin 2) * 128 + 1 * q.val = q.val; omega
  rw [View.read_apply, hemb]
  show k2_pay1 (F := Ideal) _ _ _ _ (ix2 p q) = Cert.Gcn.fusedLayer (V c main_v49) (V c main_v15) (V c main_v54) (V c main_v53) (ix2 r q)
  rw [k2_pay1_apply, blk2_1 V c t p r hr]
  unfold Cert.Gcn.fusedLayer Cert.Gcn.scaledLin
  refine congrArg (· * _) (Finset.sum_congr rfl fun k _ => ?_)
  rw [blk2_0 V c t p k r hr, blk2_2 V c t k, blk2_3 V c t k q]
  rfl

/-- An index of the output array is in point `t`'s block iff each coordinate is in the block's range on its axis. -/
theorem mem_blk2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v55).slice (win2_4.rect t)).set ↔ _
  rw [View.set_slice_whole, Rect.mem_set_unit]
  exact Iff.rfl

/-- Row `r` of the output array is in the block of point `r / 5000`. -/
theorem cover2 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, ea, eb⟩ := idx_facts2 t
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- REGION 2: after the region its output array is the inner layer of the aggregate, the scale column, the bias row and
    the weights as the region found them. -/
theorem region2_final (c : Dev nD) :
    (dat2 (F := Ideal) V c).arrAt 4 cfg2.N = Cert.Gcn.fusedLayer (V c main_v49) (V c main_v15) (V c main_v54) (V c main_v53) :=
  (dat2 V c).arrAt_eq_of_cover 4 _ (fun t _ => flushed2_eq V c t) cover2

end Cert.KernelIdeal.Regions

end
-- ==== Proof.KRegion3.lean ====
/-
  Region 3 (the last activation): what the region leaves in its output array, as one function of its four input
  arrays. The body's value at an index of its block; each input block read where the output's block sits; the ten
  row blocks cover the array.
-/
import proofs.«146795_j3770981286765_2_alg».proof.Proof.Gen.KernelIdeal.Frame
import proofs.«146795_j3770981286765_2_alg».proof.Proof.KCommon
import proofs.«146795_j3770981286765_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

/-- The body's value at `(p, q)` of its block: the aggregate times the row's scale, plus the bias, clamped below by
    zero, times the row's mask. -/
theorem k3_pay1_apply (v0 : Vec Ideal S5000x1 .f32) (v4 : Vec Ideal S1x128 .f32) (v8 : Vec Ideal S5000x1 .f32) (v12 : Vec Ideal S5000x128 .f32)
    (p : Fin 5000) (q : Fin 128) :
    k3_pay1 (F := Ideal) v0 v4 v8 v12 (ix2 p q)
      = max (v12 (ix2 p q) * v0 (ix2 p 0) + v4 (ix2 0 q)) 0 * v8 (ix2 p 0) := by
  unfold k3_pay1
  rw [mulf_apply, maximumf_apply, addf_apply, mulf_apply, broadcast_apply]
  simp only [broadcastTo_a1_ab_apply, broadcastTo_1b_ab_apply, shapeCast_self]
  show max _ (Ideal.ofBits .f32 0x00000000#32) * _ = _
  rw [Ideal.ofBits_zero_f32]

/-- The windows' block indices at grid point `t`, decided over the ten points: the aggregate, scale, mask and output
    windows sit at row block `t`, the bias at its one block. -/
theorem idx_facts3 : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0
    ∧ win3_4.index t (0 : Fin 2) = t.val
    ∧ win3_4.index t (1 : Fin 2) = 0 :=
  (by decide +kernel : ∀ t : Fin grid3.N, _)

variable (V : (c : Dev nD) → (b : Ref sig .tc) → Buf (Elt Ideal) ((c : Thread nD τ).loc b))

/-- The aggregate window's block at point `t` holds rows `5000 t … 5000 t + 4999` of the aggregate. -/
theorem blk3_0 (c : Dev nD) (t : Fin cfg3.N) (p : Fin 5000) (k : Fin 128) (r : Fin 50000) (hr : r.val = t.val * 5000 + p.val) :
    (iblk3 (F := Ideal) V c 0 t : Vec Ideal S5000x128 .f32) (ix2 p k) = (V c main_v65 : S50000x128.Idx → EReal) (ix2 r k) := by
  obtain ⟨ea, eb, -⟩ := idx_facts3 t
  unfold iblk3
  rw [View.read_apply]
  show V c main_v65 _ = V c main_v65 _
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- The scale window's block at point `t` holds rows `5000 t … 5000 t + 4999` of the scale column. -/
theorem blk3_1 (c : Dev nD) (t : Fin cfg3.N) (p : Fin 5000) (r : Fin 50000) (hr : r.val = t.val * 5000 + p.val) :
    (iblk3 (F := Ideal) V c 1 t : Vec Ideal S5000x1 .f32) (ix2 p 0) = (V c main_v15 : S50000x1.Idx → EReal) (ix2 r 0) := by
  obtain ⟨-, -, ea, eb, -⟩ := idx_facts3 t
  unfold iblk3
  rw [View.read_apply]
  show V c main_v15 _ = V c main_v15 _
  refine congrArg _ (funext fun a => Fin.ext ?_)
  match a with
  | ⟨0, _⟩ => show win3_1.index t (0 : Fin 2) * 5000 + 1 * p.val = r.val; omega
  | ⟨1, _⟩ => show win3_1.index t (1 : Fin 2) * 1 + 1 * 0 = 0; omega

/-- The bias window holds the whole bias row at every point. -/
theorem blk3_2 (c : Dev nD) (t : Fin cfg3.N) (q : Fin 128) :
    (iblk3 (F := Ideal) V c 2 t : Vec Ideal S1x128 .f32) (ix2 0 q) = (V c main_v68 : S1x128.Idx → EReal) (ix2 0 q) := by
  obtain ⟨-, -, -, -, ea, eb, -⟩ := idx_facts3 t
  unfold iblk3
  rw [View.read_apply]
  show V c main_v68 _ = V c main_v68 _
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

/-- The mask window's block at point `t` holds rows `5000 t … 5000 t + 4999` of the mask column. -/
theorem blk3_3 (c : Dev nD) (t : Fin cfg3.N) (p : Fin 5000) (r : Fin 50000) (hr : r.val = t.val * 5000 + p.val) :
    (iblk3 (F := Ideal) V c 3 t : Vec Ideal S5000x1 .f32) (ix2 p 0) = (V c main_v20 : S50000x1.Idx → EReal) (ix2 r 0) := by
  obtain ⟨-, -, -, -, -, -, ea, eb, -⟩ := idx_facts3 t
  unfold iblk3
  rw [View.read_apply]
  show V c main_v20 _ = V c main_v20 _
  refine congrArg _ (funext fun a => Fin.ext ?_)
  match a with
  | ⟨0, _⟩ => show win3_3.index t (0 : Fin 2) * 5000 + 1 * p.val = r.val; omega
  | ⟨1, _⟩ => show win3_3.index t (1 : Fin 2) * 1 + 1 * 0 = 0; omega

/-- What point `t` writes back is block `t` of the masked activation of the four arrays as the region finds them. -/
theorem flushed3_eq (c : Dev nD) (t : Fin cfg3.N) :
    (dat3 (F := Ideal) V c).flushed 4 t
      = ((cfg3.win 4).blk t).view.read (Elt Ideal) (Cert.Gcn.finalAct (V c main_v65) (V c main_v15) (V c main_v68) (V c main_v20)) := by
  show (cfg3.win 4).cut (grid3.coords t) ((dat3 V c).after 4 t) = _
  rw [after3_4]
  unfold out3_4
  rw [View.canon_unit_zero hz]
  simp only [View.ld_unit_zero (S := S5000x128) hz, View.ld_unit_zero (S := S1x128) hz, View.ld_unit_zero (S := S5000x1) hz]
  funext j
  obtain ⟨p, q, rfl⟩ : ∃ (p : Fin 5000) (q : Fin 128), j = ix2 p q := ⟨j 0, j 1, eq_ix2 j⟩
  obtain ⟨-, -, -, -, -, -, -, -, ea, eb⟩ := idx_facts3 t
  have hN : cfg3.N = 10 := N_3
  have ht : t.val < 10 := hN ▸ t.isLt
  obtain ⟨r, hr⟩ : ∃ r : Fin 50000, r.val = t.val * 5000 + p.val := ⟨⟨t.val * 5000 + p.val, by have := p.isLt; omega⟩, rfl⟩
  have hemb : ((cfg3.win 4).blk t).view.emb (ix2 p q) = (ix2 r q : S50000x128.Idx) := by
    funext a; apply Fin.ext
    match a with
    | ⟨0, _⟩ => show win3_4.index t (0 : Fin 2) * 5000 + 1 * p.val = r.val; omega
    | ⟨1, _⟩ => show win3_4.index t (1 : Fin 2) * 128 + 1 * q.val = q.val; omega
  rw [View.read_apply, hemb]
  show k3_pay1 (F := Ideal) _ _ _ _ (ix2 p q) = Cert.Gcn.finalAct (V c main_v65) (V c main_v15) (V c main_v68) (V c main_v20) (ix2 r q)
  rw [k3_pay1_apply, blk3_0 V c t p q r hr, blk3_1 V c t p r hr, blk3_2 V c t q, blk3_3 V c t p r hr]
  rfl

/-- An index of the output array is in point `t`'s block iff each coordinate is in the block's range on its axis. -/
theorem mem_blk3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v69).slice (win3_4.rect t)).set ↔ _
  rw [View.set_slice_whole, Rect.mem_set_unit]
  exact Iff.rfl

/-- Row `r` of the output array is in the block of point `r / 5000`. -/
theorem cover3 (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, ea, eb⟩ := idx_facts3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- REGION 3: after the region its output array is the masked activation of the aggregate, the scale column, the bias row
    and the mask column as the region found them. -/
theorem region3_final (c : Dev nD) :
    (dat3 (F := Ideal) V c).arrAt 4 cfg3.N = Cert.Gcn.finalAct (V c main_v65) (V c main_v15) (V c main_v68) (V c main_v20) :=
  (dat3 V c).arrAt_eq_of_cover 4 _ (fun t _ => flushed3_eq V c t) cover3

end Cert.KernelIdeal.Regions

end
-- ==== Proof.KRegion4.lean ====
/-
  Region 4 (the pooled head): what the region leaves in its output array, as one function of its four input arrays.
  The body's value at an index; every window is its whole array and the grid has one point, so the one block is the
  array.
-/
import proofs.«146795_j3770981286765_2_alg».proof.Proof.Gen.KernelIdeal.Frame
import proofs.«146795_j3770981286765_2_alg».proof.Proof.KCommon
import proofs.«146795_j3770981286765_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Regions

open Cert.KernelIdeal Cert.KernelIdeal.Gen Idealize.ShloMosaic Idealize.ShloMosaic.ValueIdx Idealize.ShloMosaic.TcCoe Idealize.SL.Sem
open Idealize.ShloMosaic.Pipeline (Dat)

/-- The body's value at `(p, 0)`: row `p` of the sums, each entry over the row's count clamped below by one, against
    the weight column, plus the bias. -/
theorem k4_pay1_apply (v0 : Vec Ideal S512x1 .f32) (v6 : Vec Ideal S512x128 .f32) (v10 : Vec Ideal S128x1 .f32) (v13 : Vec Ideal S1x1 .f32)
    (p : Fin 512) :
    k4_pay1 (F := Ideal) v0 v6 v10 v13 (ix2 p (0 : Fin 1))
      = (∑ k : Fin 128, Ideal.div (v6 (ix2 p k)) (max (v0 (ix2 p 0)) Cert.Gcn.one32) * v10 (ix2 k 0)) + v13 (ix2 0 0) := by
  unfold k4_pay1
  rw [addf_apply, matmul_512_apply, broadcastTo_1b_ab_apply]
  simp only [truncf_apply, divf_apply, maximumf_apply, broadcast_apply, broadcastTo_a1_ab_apply, shapeCast_self]
  rfl

/-- The windows' block indices at the one grid point: every window sits at its one block. -/
theorem idx_facts4 : ∀ t : Fin cfg4.N,
    win4_0.index t (0 : Fin 2) = 0
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0 :=
  (by decide +kernel : ∀ t : Fin grid4.N, _)

variable (V : (c : Dev nD) → (b : Ref sig .tc) → Buf (Elt Ideal) ((c : Thread nD τ).loc b))

/-- The sums window holds the whole array of sums. -/
theorem blk4_0 (c : Dev nD) (t : Fin cfg4.N) (k : Fin 512) (q : Fin 128) :
    (iblk4 (F := Ideal) V c 0 t : Vec Ideal S512x128 .f32) (ix2 k q) = (V c main_v72 : S512x128.Idx → EReal) (ix2 k q) := by
  obtain ⟨ea, eb, -⟩ := idx_facts4 t
  unfold iblk4
  rw [View.read_apply]
  show V c main_v72 _ = V c main_v72 _
  refine congrArg _ (funext fun a => Fin.ext ?_)
  match a with
  | ⟨0, _⟩ => show win4_0.index t (0 : Fin 2) * 512 + 1 * k.val = k.val; omega
  | ⟨1, _⟩ => show win4_0.index t (1 : Fin 2) * 128 + 1 * q.val = q.val; omega

/-- The count window holds the whole count column. -/
theorem blk4_1 (c : Dev nD) (t : Fin cfg4.N) (k : Fin 512) :
    (iblk4 (F := Ideal) V c 1 t : Vec Ideal S512x1 .f32) (ix2 k 0) = (V c main_v77 : S512x1.Idx → EReal) (ix2 k 0) := by
  obtain ⟨-, -, ea, eb, -⟩ := idx_facts4 t
  unfold iblk4
  rw [View.read_apply]
  show V c main_v77 _ = V c main_v77 _
  refine congrArg _ (funext fun a => Fin.ext ?_)
  match a with
  | ⟨0, _⟩ => show win4_1.index t (0 : Fin 2) * 512 + 1 * k.val = k.val; omega
  | ⟨1, _⟩ => show win4_1.index t (1 : Fin 2) * 1 + 1 * 0 = 0; omega

/-- The weight window holds the whole weight column. -/
theorem blk4_2 (c : Dev nD) (t : Fin cfg4.N) (k : Fin 128) :
    (iblk4 (F := Ideal) V c 2 t : Vec Ideal S128x1 .f32) (ix2 k 0) = (V c main_arg3 : S128x1.Idx → EReal) (ix2 k 0) := by
  obtain ⟨-, -, -, -, ea, eb, -⟩ := idx_facts4 t
  unfold iblk4
  rw [View.read_apply]
  show V c main_arg3 _ = V c main_arg3 _
  refine congrArg _ (funext fun a => Fin.ext ?_)
  match a with
  | ⟨0, _⟩ => show win4_2.index t (0 : Fin 2) * 128 + 1 * k.val = k.val; omega
  | ⟨1, _⟩ => show win4_2.index t (1 : Fin 2) * 1 + 1 * 0 = 0; omega

/-- The bias window holds the one bias entry. -/
theorem blk4_3 (c : Dev nD) (t : Fin cfg4.N) :
    (iblk4 (F := Ideal) V c 3 t : Vec Ideal S1x1 .f32) (ix2 0 0) = (V c main_v78 : S1x1.Idx → EReal) (ix2 0 0) := by
  obtain ⟨-, -, -, -, -, -, ea, eb, -⟩ := idx_facts4 t
  unfold iblk4
  rw [View.read_apply]
  show V c main_v78 _ = V c main_v78 _
  refine congrArg _ (funext fun a => Fin.ext ?_)
  match a with
  | ⟨0, _⟩ => show win4_3.index t (0 : Fin 2) * 1 + 1 * 0 = 0; omega
  | ⟨1, _⟩ => show win4_3.index t (1 : Fin 2) * 1 + 1 * 0 = 0; omega

/-- What the one point writes back is the one block of the head of the four arrays as the region finds them. -/
theorem flushed4_eq (c : Dev nD) (t : Fin cfg4.N) :
    (dat4 (F := Ideal) V c).flushed 4 t
      = ((cfg4.win 4).blk t).view.read (Elt Ideal) (Cert.Gcn.head (V c main_v72) (V c main_v77) (V c main_arg3) (V c main_v78)) := by
  show (cfg4.win 4).cut (grid4.coords t) ((dat4 V c).after 4 t) = _
  rw [after4_4]
  unfold out4_4
  rw [View.canon_unit_zero hz]
  simp only [View.ld_unit_zero (S := S512x128) hz, View.ld_unit_zero (S := S512x1) hz, View.ld_unit_zero (S := S128x1) hz, View.ld_unit_zero (S := S1x1) hz]
  funext j
  obtain ⟨p, rfl⟩ : ∃ p : Fin 512, j = ix2 p (0 : Fin 1) :=
    ⟨j 0, funext fun a => by
      match a with
      | ⟨0, _⟩ => rfl
      | ⟨1, _⟩ => exact Fin.ext (by have h1 : (j 1).val < 1 := (j 1).isLt; show (j 1).val = 0; omega)⟩
  obtain ⟨-, -, -, -, -, -, -, -, ea, eb⟩ := idx_facts4 t
  have hemb : ((cfg4.win 4).blk t).view.emb (ix2 p (0 : Fin 1)) = (ix2 p (0 : Fin 1) : S512x1.Idx) := by
    funext a; apply Fin.ext
    match a with
    | ⟨0, _⟩ => show win4_4.index t (0 : Fin 2) * 512 + 1 * p.val = p.val; omega
    | ⟨1, _⟩ => show win4_4.index t (1 : Fin 2) * 1 + 1 * 0 = 0; omega
  rw [View.read_apply, hemb]
  show k4_pay1 (F := Ideal) _ _ _ _ (ix2 p (0 : Fin 1)) = Cert.Gcn.head (V c main_v72) (V c main_v77) (V c main_arg3) (V c main_v78) (ix2 p (0 : Fin 1))
  rw [k4_pay1_apply, blk4_1 V c t p, blk4_3 V c t]
  unfold Cert.Gcn.head
  refine congrArg (· + _) (Finset.sum_congr rfl fun k _ => ?_)
  rw [blk4_0 V c t p k, blk4_2 V c t k]

/-- An index of the output array is in the one point's block iff each coordinate is in the block's range on its axis. -/
theorem mem_blk4 (t : Fin cfg4.N) (i : S512x1.Idx) :
    i ∈ ((cfg4.win 4).blk t).view.set ↔ ∀ a : Fin 2, win4_4.index t a * S512x1.size a ≤ (i a).val ∧ (i a).val < win4_4.index t a * S512x1.size a + S512x1.size a := by
  show i ∈ ((View.whole main_v79).slice (win4_4.rect t)).set ↔ _
  rw [View.set_slice_whole, Rect.mem_set_unit]
  exact Iff.rfl

/-- Every index of the output array is in the one point's block. -/
theorem cover4 (i : S512x1.Idx) : ∃ t : Fin cfg4.N, (cfg4.win 4).flush t = true ∧ i ∈ ((cfg4.win 4).blk t).view.set := by
  have hi0 : (i 0).val < 512 := (i 0).isLt
  have hi1 : (i 1).val < 1 := (i 1).isLt
  have hN : cfg4.N = 1 := N_4
  obtain ⟨t, ht⟩ : ∃ t : Fin cfg4.N, t.val = 0 := ⟨⟨0, by rw [hN]; omega⟩, rfl⟩
  obtain ⟨-, -, -, -, -, -, -, -, ea, eb⟩ := idx_facts4 t
  refine ⟨t, flush4_4 t, ?_⟩
  rw [mem_blk4]
  intro a
  match a with
  | ⟨0, _⟩ => show win4_4.index t (0 : Fin 2) * 512 ≤ (i 0).val ∧ (i 0).val < win4_4.index t (0 : Fin 2) * 512 + 512; omega
  | ⟨1, _⟩ => show win4_4.index t (1 : Fin 2) * 1 ≤ (i 1).val ∧ (i 1).val < win4_4.index t (1 : Fin 2) * 1 + 1; omega

/-- REGION 4: after the region its output array is the head of the sums, the counts, the weight column and the bias as
    the region found them. -/
theorem region4_final (c : Dev nD) :
    (dat4 (F := Ideal) V c).arrAt 4 cfg4.N = Cert.Gcn.head (V c main_v72) (V c main_v77) (V c main_arg3) (V c main_v78) :=
  (dat4 V c).arrAt_eq_of_cover 4 _ (fun t _ => flushed4_eq V c t) cover4

end Cert.KernelIdeal.Regions

end
-- ==== Proof.KValue.lean ====
/-
  The idealized kernel's result as one term of the launch arrays. Region by region: region 0 leaves the features
  times layer 0's weights, rows scaled (`hp0`); the stretch after it sums those rows over the edges (`ag0`); each
  inner region applies the activation to the aggregate it is handed and multiplies by the next weights (`hp1`,
  `hp2`); region 3 applies the last activation and the padding mask (`xf`); the last stretch pools by graph and
  counts; region 4 divides, applies the head, and the result is its column read as a vector (`out`).
  Each step is the region's closed form (its output array as a whole-array function of the arrays it read) at the
  contents the previous boundary hands it.
-/
import proofs.«146795_j3770981286765_2_alg».proof.Proof.KHostA
import proofs.«146795_j3770981286765_2_alg».proof.Proof.KRegion0
import proofs.«146795_j3770981286765_2_alg».proof.Proof.KRegion1
import proofs.«146795_j3770981286765_2_alg».proof.Proof.KRegion2
import proofs.«146795_j3770981286765_2_alg».proof.Proof.KRegion3
import proofs.«146795_j3770981286765_2_alg».proof.Proof.KRegion4
import proofs.«146795_j3770981286765_2_alg».proof.Proof.Spec

set_option maxRecDepth 16384

noncomputable section

namespace Cert.KernelIdeal.Host

open Cert.KernelIdeal Cert.KernelIdeal.Gen Cert.KernelIdeal.Regions
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- Region 0's output: the features times layer 0's weights, row `r` scaled by `d r`. -/
def hp0 : Vec Ideal S50000x128 .f32 := Cert.Gcn.scaledLin (m ((c.tc : Thread nD τ).loc main_arg0)) (wt0 m c) (dcol m ρ c)
/-- Summed over the edges. -/
def ag0 : Vec Ideal S50000x128 .f32 := segSum m ρ c (hp0 m ρ c)
/-- Region 1's output. -/
def hp1 : Vec Ideal S50000x128 .f32 := Cert.Gcn.fusedLayer (ag0 m ρ c) (dcol m ρ c) (bias0 m c) (wt1 m c)
def ag1 : Vec Ideal S50000x128 .f32 := segSum m ρ c (hp1 m ρ c)
/-- Region 2's output. -/
def hp2 : Vec Ideal S50000x128 .f32 := Cert.Gcn.fusedLayer (ag1 m ρ c) (dcol m ρ c) (bias1 m c) (wt2 m c)
def ag2 : Vec Ideal S50000x128 .f32 := segSum m ρ c (hp2 m ρ c)
/-- Region 3's output: the last activation, padding rows zeroed. -/
def xf : Vec Ideal S50000x128 .f32 := Cert.Gcn.finalAct (ag2 m ρ c) (dcol m ρ c) (bias2 m c) (mcol m ρ c)
/-- Region 4's output, read as a vector: the result. -/
def out : Vec Ideal S512 .f32 :=
  shapeCast S512 (Cert.Gcn.head (pool m c (xf m ρ c)) (count m ρ c) (m ((c.tc : Thread nD τ).loc main_arg3))
    (shapeCast S1x1 (m ((c.tc : Thread nD τ).loc main_arg4)) shapeCasts_S1_S1x1)) shapeCasts_S512x1_S512

theorem v23_at4 : W4 m ρ c (Proc.devRef .tc main_v23) = hp0 m ρ c := by
  refine (W4_arr m ρ c 3).trans ((region0_final (V3 m ρ) c).trans ?_)
  rw [show V3 m ρ c main_arg0 = _ from arg0_at3 m ρ c, show V3 m ρ c main_v22 = _ from wt0_at3 m ρ c]
  rfl

theorem v39_at6 : W6 m ρ c (Proc.devRef .tc main_v39) = hp1 m ρ c := by
  refine (W6_arr m ρ c 4).trans ((region1_final (V5 m ρ) c).trans ?_)
  rw [show V5 m ρ c main_v33 = _ from (agg_at5 m ρ c).trans (congrArg (segSum m ρ c) (v23_at4 m ρ c)),
    show V5 m ρ c main_v15 = _ from dcol_at5 m ρ c, show V5 m ρ c main_v38 = _ from bias_at5 m ρ c,
    show V5 m ρ c main_v37 = _ from wt_at5 m ρ c]
  rfl

theorem v55_at8 : W8 m ρ c (Proc.devRef .tc main_v55) = hp2 m ρ c := by
  refine (W8_arr m ρ c 4).trans ((region2_final (V7 m ρ) c).trans ?_)
  rw [show V7 m ρ c main_v49 = _ from (agg_at7 m ρ c).trans (congrArg (segSum m ρ c) (v39_at6 m ρ c)),
    show V7 m ρ c main_v15 = _ from dcol_at7 m ρ c, show V7 m ρ c main_v54 = _ from bias_at7 m ρ c,
    show V7 m ρ c main_v53 = _ from wt_at7 m ρ c]
  rfl

theorem v69_at10 : W10 m ρ c (Proc.devRef .tc main_v69) = xf m ρ c := by
  refine (W10_arr m ρ c 4).trans ((region3_final (V9 m ρ) c).trans ?_)
  rw [show V9 m ρ c main_v65 = _ from (agg_at9 m ρ c).trans (congrArg (segSum m ρ c) (v55_at8 m ρ c)),
    show V9 m ρ c main_v15 = _ from dcol_at9 m ρ c, show V9 m ρ c main_v68 = _ from bias_at9 m ρ c,
    show V9 m ρ c main_v20 = _ from mcol_at9 m ρ c]
  rfl

/-- The kernel's result buffer at the end of the run. -/
theorem result_eq : W13 m ρ c (Proc.devRef .tc main_v80) = out m ρ c := by
  refine (result_at13 m ρ c).trans (congrArg (fun x => shapeCast S512 x shapeCasts_S512x1_S512) ?_)
  refine (W12_arr m ρ c 4).trans ((region4_final (V11 m ρ) c).trans ?_)
  rw [show V11 m ρ c main_v72 = _ from (sums_at11 m ρ c).trans (congrArg (pool m c) (v69_at10 m ρ c)),
    show V11 m ρ c main_v77 = _ from count_at11 m ρ c, show V11 m ρ c main_arg3 = _ from arg3_at11 m ρ c,
    show V11 m ρ c main_v78 = _ from hbias_at11 m ρ c]

end Cert.KernelIdeal.Host

end
-- ==== Proof.KIdent.lean ====
/-
  The kernel's host-side arrays are the reference's. Both programs build the edge lists, the per-node scale, the
  padding mask, the weight and bias slices, and the index arrays of their gathers and scatter-adds by the same
  host operations of the same arguments; so each of the kernel's long-lived arrays IS the reference's stage of that
  name at the kernel's own launch arrays, the two terms being one composition of operations. `segSum`, `pool` and
  `count` are then the reference's scatter-adds (exact sums at this instance) with the reference's own index arrays.
-/
import proofs.«146795_j3770981286765_2_alg».proof.Proof.KHostA
import proofs.«146795_j3770981286765_2_alg».proof.Proof.RefReadP

set_option maxRecDepth 16384

noncomputable section

namespace Cert.KernelIdeal.Host

open Cert.KernelIdeal Cert.KernelIdeal.Gen
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg) (c : Dev nD)

/-- The launch arrays, named as the reference's stages take them. -/
abbrev a0 : (⟨Cert.ReferenceIdeal.S50000x128, .f32⟩ : BufTy).Contents (Elt Ideal) := m ((c.tc : Thread nD τ).loc main_arg0)
abbrev a1 : (⟨Cert.ReferenceIdeal.S3x128x128, .f32⟩ : BufTy).Contents (Elt Ideal) := m ((c.tc : Thread nD τ).loc main_arg1)
abbrev a2 : (⟨Cert.ReferenceIdeal.S3x128, .f32⟩ : BufTy).Contents (Elt Ideal) := m ((c.tc : Thread nD τ).loc main_arg2)
abbrev a3 : (⟨Cert.ReferenceIdeal.S128x1, .f32⟩ : BufTy).Contents (Elt Ideal) := m ((c.tc : Thread nD τ).loc main_arg3)
abbrev a4 : (⟨Cert.ReferenceIdeal.S1, .f32⟩ : BufTy).Contents (Elt Ideal) := m ((c.tc : Thread nD τ).loc main_arg4)
abbrev a5 : (⟨Cert.ReferenceIdeal.S2x625000, .i32⟩ : BufTy).Contents (Elt Ideal) := m ((c.tc : Thread nD τ).loc main_arg5)
abbrev a6 : (⟨Cert.ReferenceIdeal.S50000, .i32⟩ : BufTy).Contents (Elt Ideal) := m ((c.tc : Thread nD τ).loc main_arg6)

/-- After the one-pass reading of a stretch, the operands of a `concatenate` (a list of pairs the pass does not enter)
    are still unread: read them with the same rules, one rewrite at a time. -/
macro "leaf_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

set_option maxHeartbeats 4000000 in
theorem src_eq : src m ρ c = Cert.ReferenceIdeal.Read.val_main_v3 (F := Ideal) (a5 m c) := by
  unfold src; dsimp only [W3, W2, W1, hostOps0_2, hostOps0_1, hostOps0]; after_results_simp; leaf_results
  unfold Cert.ReferenceIdeal.Read.val_main_v3 Cert.ReferenceIdeal.Read.val_main_v2 Cert.ReferenceIdeal.Read.val_main_v1 Cert.ReferenceIdeal.Read.val_main_v0
  rfl
set_option maxHeartbeats 4000000 in
theorem dst_eq : dst m ρ c = Cert.ReferenceIdeal.Read.val_main_v6 (F := Ideal) (a5 m c) := by
  unfold dst; dsimp only [W3, W2, W1, hostOps0_2, hostOps0_1, hostOps0]; after_results_simp; leaf_results
  unfold Cert.ReferenceIdeal.Read.val_main_v6 Cert.ReferenceIdeal.Read.val_main_v5 Cert.ReferenceIdeal.Read.val_main_v4 Cert.ReferenceIdeal.Read.val_main_v0
  rfl
set_option maxHeartbeats 4000000 in
/-- The comparison "degree above zero" and the degree's inverse square root, after the first stretch. -/
theorem pos_at1 : W1 m ρ c (Proc.devRef .tc main_v12) = Cert.ReferenceIdeal.Read.val_main_v12 (F := Ideal) (a5 m c) := by
  dsimp only [W1, hostOps0]; after_results_simp; leaf_results
  unfold Cert.ReferenceIdeal.Read.val_main_v12 Cert.ReferenceIdeal.Read.val_main_v11 Cert.ReferenceIdeal.Read.val_main_cst_1 Cert.ReferenceIdeal.Read.val_main_v10 Cert.ReferenceIdeal.Read.val_main_v9 Cert.ReferenceIdeal.Read.val_main_v8 Cert.ReferenceIdeal.Read.val_main_cst_0 Cert.ReferenceIdeal.Read.val_main_v7 Cert.ReferenceIdeal.Read.val_main_cst Cert.ReferenceIdeal.Read.val_main_v6 Cert.ReferenceIdeal.Read.val_main_v5 Cert.ReferenceIdeal.Read.val_main_v4 Cert.ReferenceIdeal.Read.val_main_v0
  rfl
set_option maxHeartbeats 4000000 in
theorem rsq_at1 : W1 m ρ c (Proc.devRef .tc main_v13) = Cert.ReferenceIdeal.Read.val_main_v13 (F := Ideal) (a5 m c) := by
  dsimp only [W1, hostOps0]; after_results_simp; leaf_results
  unfold Cert.ReferenceIdeal.Read.val_main_v13 Cert.ReferenceIdeal.Read.val_main_v10 Cert.ReferenceIdeal.Read.val_main_v9 Cert.ReferenceIdeal.Read.val_main_v8 Cert.ReferenceIdeal.Read.val_main_cst_0 Cert.ReferenceIdeal.Read.val_main_v7 Cert.ReferenceIdeal.Read.val_main_cst Cert.ReferenceIdeal.Read.val_main_v6 Cert.ReferenceIdeal.Read.val_main_v5 Cert.ReferenceIdeal.Read.val_main_v4 Cert.ReferenceIdeal.Read.val_main_v0
  rfl
set_option maxHeartbeats 4000000 in
theorem zero_at1 : W1 m ρ c (Proc.devRef .tc main_cst_2) = Cert.ReferenceIdeal.Read.val_main_cst_2 (F := Ideal) := by
  dsimp only [W1, hostOps0]; after_results_simp; try rfl
set_option maxHeartbeats 4000000 in
/-- The selecting call, from any contents `V`: its result is the select of the three buffers it reads. -/
theorem where_of (V : Valuation τ sig (Elt Ideal)) :
    after hostOps0_1 V (Proc.devRef .tc main_v14)
      = select (V (Proc.devRef .tc main_v12)) (V (Proc.devRef .tc main_v13))
          (broadcastInDim S50000 ![] bcast_S_S50000 (id (V (Proc.devRef .tc main_cst_2)))) := by
  dsimp only [hostOps0_1]; after_results_simp; rfl
set_option maxHeartbeats 4000000 in
/-- The scale as a column, from any contents `V`: the reshape of the scale vector. -/
theorem column_of (V : Valuation τ sig (Elt Ideal)) :
    after hostOps0_2 V (Proc.devRef .tc main_v15)
      = shapeCast S50000x1 (V (Proc.devRef .tc main_v14)) shapeCasts_S50000_S50000x1 := by
  dsimp only [hostOps0_2]; after_results_simp; rfl
/-- The per-node scale after the selecting call: the inverse square root where the degree is positive, else zero. -/
theorem dinv_at2 : W2 m ρ c (Proc.devRef .tc main_v14) = Cert.ReferenceIdeal.Read.val_main_v14 (F := Ideal) (a5 m c) := by
  refine (where_of (W1 m ρ c)).trans ?_
  rw [pos_at1, rsq_at1, zero_at1]
  unfold Cert.ReferenceIdeal.Read.val_main_v14 Cert.ReferenceIdeal.Read.val_main_call0_v1 Cert.ReferenceIdeal.Read.val_main_call0_v0
  rfl
theorem dcol_eq : dcol m ρ c = shapeCast S50000x1 (Cert.ReferenceIdeal.Read.val_main_v14 (F := Ideal) (a5 m c)) shapeCasts_S50000_S50000x1 := by
  unfold dcol
  refine (column_of (W2 m ρ c)).trans ?_
  rw [dinv_at2]
set_option maxHeartbeats 4000000 in
theorem mcol_eq : mcol m ρ c = shapeCast S50000x1 (Cert.ReferenceIdeal.Read.val_main_v33 (F := Ideal) (a0 m c)) shapeCasts_S50000_S50000x1 := by
  unfold mcol; dsimp only [W3, W2, W1, hostOps0_2, hostOps0_1, hostOps0]; after_results_simp; leaf_results
  unfold Cert.ReferenceIdeal.Read.val_main_v33 Cert.ReferenceIdeal.Read.val_main_v32 Cert.ReferenceIdeal.Read.val_main_v31 Cert.ReferenceIdeal.Read.val_main_cst_7 Cert.ReferenceIdeal.Read.val_main_v30 Cert.ReferenceIdeal.Read.val_main_cst_6
  rfl

theorem wt0_eq : wt0 m c = Cert.ReferenceIdeal.Read.val_main_v35 (F := Ideal) (a1 m c) := rfl
theorem wt1_eq : wt1 m c = Cert.ReferenceIdeal.Read.val_main_v57 (F := Ideal) (a1 m c) := rfl
theorem wt2_eq : wt2 m c = Cert.ReferenceIdeal.Read.val_main_v79 (F := Ideal) (a1 m c) := rfl
theorem bias0_eq : bias0 m c = shapeCast S1x128 (Cert.ReferenceIdeal.Read.val_main_v51 (F := Ideal) (a2 m c)) shapeCasts_S128_S1x128 := rfl
theorem bias1_eq : bias1 m c = shapeCast S1x128 (Cert.ReferenceIdeal.Read.val_main_v73 (F := Ideal) (a2 m c)) shapeCasts_S128_S1x128 := rfl
theorem bias2_eq : bias2 m c = shapeCast S1x128 (Cert.ReferenceIdeal.Read.val_main_v95 (F := Ideal) (a2 m c)) shapeCasts_S128_S1x128 := rfl

/-- The edge sum is the reference's scatter-add over its own index arrays, of the rows gathered at its own sources. -/
theorem segSum_eq (h : Vec Ideal S50000x128 .f32) :
    segSum m ρ c h = Ideal.hostScatterAdd Cert.ReferenceIdeal.scatter_S50000x128_S675000x1_S675000x128_1_0_0_1 (Cert.ReferenceIdeal.Read.val_main_v47 (F := Ideal))
      (Cert.ReferenceIdeal.Read.val_main_v48 (F := Ideal) (a5 m c))
      (Host.gather Cert.ReferenceIdeal.gather_S50000x128_S675000x1_S675000x128_1_0_n_n_0_1_1128 h (Cert.ReferenceIdeal.Read.val_main_v42 (F := Ideal) (a5 m c))) := by
  unfold segSum; rw [src_eq, dst_eq]; rfl

theorem pool_eq (x : Vec Ideal S50000x128 .f32) :
    pool m c x = Ideal.hostScatterAdd Cert.ReferenceIdeal.scatter_S512x128_S50000x1_S50000x128_1_0_0_1 (Cert.ReferenceIdeal.Read.val_main_v103 (F := Ideal))
      (Cert.ReferenceIdeal.Read.val_main_v104 (F := Ideal) (a6 m c)) x := rfl

theorem count_eq : count m ρ c = shapeCast S512x1 (Ideal.hostScatterAdd Cert.ReferenceIdeal.scatter_S512_S50000x1_S50000_n_0_0_1 (Cert.ReferenceIdeal.Read.val_main_v106 (F := Ideal))
      (Cert.ReferenceIdeal.Read.val_main_v107 (F := Ideal) (a6 m c)) (shapeCast S50000 (mcol m ρ c) shapeCasts_S50000x1_S50000)) shapeCasts_S512_S512x1 := rfl

end Cert.KernelIdeal.Host

end
-- ==== Proof.LibSegmentFactor.lean ====
/-
  General lemmas for segment sums over the extended reals.

  A graph-convolution layer aggregates, at every node v and feature f,

      agg[v, f]  = Σ_{edges e landing on v} h[src e, f] · (dinv[src e] · dinv[dst e]),

  while a factored computation scales the rows first, aggregates, and scales the result:

      agg'[v, f] = (Σ_{edges e landing on v} h[src e, f] · dinv[src e]) · dinv[v].

  Over the extended reals multiplication does not distribute over addition in general
  (⊤ + ⊥ is ⊥ by convention, and a product with an infinite factor loses the sign information
  of a finite sum), but it does when the common factor is a non-negative REAL number.
  Every dinv[v] is such a number (it is 0, or the reciprocal square root of a positive value),
  so the two aggregates are equal with no finiteness assumption on h. This file proves that,
  over the literal shapes  nodes 50000 × 128,  edges 675000 × 128,  one start index per edge.

  Contents:
    * the shapes and the dimension numbers of the row gather, the element gather and the
      row scatter (the attribute lists of the three operations, literally);
    * each gather read at an index  (rowGather_apply, eltGather_apply);
    * where an update row of the scatter lands  (rowScatter_lands);
    * right multiplication by a non-negative real distributes over a finite sum
      (sum_mul_coe_of_nonneg);
    * the reciprocal square root of a positive extended real is a non-negative real
      (rsqrt_of_pos);
    * the law itself  (segment_factor).
-/
import Idealize.ShloMosaic.PureOps.Ideal
import Idealize.ShloMosaic.PureOps.Contract
import Idealize.ShloMosaic.Lib.ValueIdx

open Idealize.ShloMosaic Idealize.ShloMosaic.ValueIdx
open scoped BigOperators

noncomputable section

namespace Cert.SegLaw

/-! ## Shapes and dimension numbers -/

/-- Node features: one row of 128 features per node. -/
abbrev Nodes : Shape := ⟨2, ![50000, 128]⟩
/-- One value per node. -/
abbrev NodeV : Shape := ⟨1, ![50000]⟩
/-- Edge messages: one row of 128 features per edge. -/
abbrev Edges : Shape := ⟨2, ![675000, 128]⟩
/-- One value per edge. -/
abbrev EdgeV : Shape := ⟨1, ![675000]⟩
/-- One start index (a row number) per edge, as a column. -/
abbrev EdgeI : Shape := ⟨2, ![675000, 1]⟩

/-- Scatter of edge rows into node rows: update row `e` goes, whole, to the node row its index
    names (axis 0 of the operand is the inserted window axis, axis 1 of the updates the window). -/
def rowScatter : ScatterDims Nodes EdgeI Edges :=
  { updateWindowDims := [1], insertedWindowDims := [0], scatterDimsToOperandDims := [0], indexVectorDim := 1 }

/-- Gather of node rows into edge rows: result row `e` is the whole node row its index names. -/
def rowGather : GatherDims Nodes EdgeI Edges :=
  { offsetDims := [1], collapsedSliceDims := [0], operandBatchingDims := [], startIndicesBatchingDims := [],
    startIndexMap := [0], indexVectorDim := 1, sliceSizes := ![1, 128] }

/-- Gather of one value per node into one value per edge. -/
def eltGather : GatherDims NodeV EdgeI EdgeV :=
  { offsetDims := [], collapsedSliceDims := [0], operandBatchingDims := [], startIndicesBatchingDims := [],
    startIndexMap := [0], indexVectorDim := 1, sliceSizes := ![1] }

/-- The row a start index selects: read signed, clamped into [0, 49999]. -/
def row (z : BitVec 32) : Fin 50000 := ⟨min z.toInt.toNat 49999, by omega⟩

/-! ## The two gathers, read at an index

On the collapsed axis 0 the operand coordinate is the clamped start index (no batching and no
offset contribution); on axis 1 of the row gather the start is 0 and the offset coordinate is
the result's own column. -/

/-- The row gather at `(e, f)`: the operand at row `row (idx[e, 0])`, column `f`. -/
theorem rowGather_apply {α : Type} (x : Nodes.Idx → α) (idx : IVec EdgeI 32) (j : Edges.Idx) :
    Host.gather rowGather x idx j = x (ix2 (row (idx (ix2 (j 0) 0))) (j 1)) := by
  unfold Host.gather
  congr 1
  funext a
  refine Fin.ext ?_
  match a with
  | ⟨0, _⟩ =>
    show rowGather.start j idx 0 + rowGather.batchCoord j 0 + rowGather.offCoord j 0
      = (row (idx (ix2 (j 0) 0))).val
    rw [GatherDims.batchCoord_eq_zero _ _ _ List.not_mem_nil, Nat.add_zero,
      GatherDims.offCoord_eq_zero _ _ _
        (fun h => ((GatherDims.mem_sKept _ _).mp h).1 (List.mem_singleton.mpr rfl)), Nat.add_zero]
    unfold GatherDims.start
    rw [dif_pos (show (0 : Fin 2) ∈ rowGather.startIndexMap from List.mem_singleton.mpr rfl)]
    -- the start index of result index `(e, f)` is read at `[e, 0]`
    have hsi : rowGather.siIdx j ⟨List.idxOf (0 : Fin 2) rowGather.startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show rowGather.start j idx 1 + rowGather.batchCoord j 1 + rowGather.offCoord j 1 = (j 1).val
    have hs : rowGather.start j idx 1 = 0 := by
      unfold GatherDims.start
      rw [dif_neg (by decide)]
    rw [hs, Nat.zero_add, GatherDims.batchCoord_eq_zero _ _ _ List.not_mem_nil, Nat.zero_add]
    rfl

/-- The element gather at `e`: the operand at `row (idx[e, 0])`. -/
theorem eltGather_apply {α : Type} (y : NodeV.Idx → α) (idx : IVec EdgeI 32) (e : EdgeV.Idx) :
    Host.gather eltGather y idx e = y (ix1 (row (idx (ix2 (e 0) 0)))) := by
  unfold Host.gather
  congr 1
  funext a
  refine Fin.ext ?_
  match a with
  | ⟨0, _⟩ =>
    show eltGather.start e idx 0 + eltGather.batchCoord e 0 + eltGather.offCoord e 0
      = (row (idx (ix2 (e 0) 0))).val
    rw [GatherDims.batchCoord_eq_zero _ _ _ List.not_mem_nil, Nat.add_zero,
      GatherDims.offCoord_eq_zero _ _ _
        (fun h => ((GatherDims.mem_sKept _ _).mp h).1 (List.mem_singleton.mpr rfl)), Nat.add_zero]
    unfold GatherDims.start
    rw [dif_pos (show (0 : Fin 1) ∈ eltGather.startIndexMap from List.mem_singleton.mpr rfl)]
    have hsi : eltGather.siIdx e ⟨List.idxOf (0 : Fin 1) eltGather.startIndexMap,
        List.idxOf_lt_length_iff.2 (List.mem_singleton.mpr rfl)⟩ = ix2 (e 0) 0 := by
      funext b; refine Fin.ext ?_
      match b with
      | ⟨0, _⟩ => rfl
      | ⟨1, _⟩ => rfl
    rw [hsi]
    rfl

/-! ## Where an update row lands

Update element `(e, f)` lands at operand index `(idx[e, 0], f)`, the index read signed and NOT
clamped, and only when that is a row of the operand: on axis 0 the start is the index and the
window coordinate 0; on axis 1 the start is 0 and the window coordinate is `f`. -/

/-- If update element `j = (e, f)` lands at operand index `i`, then the start index of `e`, read
    signed, is the row of `i`, and the columns agree. -/
theorem rowScatter_lands (idx : IVec EdgeI 32) (j : Edges.Idx) (i : Nodes.Idx) :
    rowScatter.resultIdx? j idx = some i →
      ((idx (ix2 (j 0) 0)).toInt = ((i 0).val : Int) ∧ j 1 = i 1) := by
  intro hres
  have hs0 : rowScatter.start j idx 0 = (idx (ix2 (j 0) 0)).toInt := by
    unfold ScatterDims.start
    rw [dif_pos (show (0 : Fin 2) ∈ rowScatter.scatterDimsToOperandDims from List.mem_singleton.mpr rfl)]
    have hsi : rowScatter.siIdx j ⟨List.idxOf (0 : Fin 2) rowScatter.scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hw0 : rowScatter.window j 0 = 0 := by
    unfold ScatterDims.window
    rw [dif_neg (by decide)]
  have hs1 : rowScatter.start j idx 1 = 0 := by
    unfold ScatterDims.start
    rw [dif_neg (by decide)]
  have hw1 : rowScatter.window j 1 = (j 1).val := by
    unfold ScatterDims.window
    rw [dif_pos (by decide)]
    rfl
  unfold ScatterDims.resultIdx? at hres
  split at hres
  · rename_i hin
    have hi := Option.some.inj hres
    constructor
    · -- axis 0: the landing row is the (non-negative) start index itself
      have h0 := congrArg (fun f => (f 0).val) hi
      have hin0 := (hin 0).1
      simp only [hs0, hw0] at h0 hin0
      omega
    · -- axis 1: the landing column is the update's column
      apply Fin.ext
      have h1 := congrArg (fun f => (f 1).val) hi
      simp only [hs1, hw1] at h1
      omega
  · exact absurd hres (by simp)

/-! ## Distributivity over the extended reals, for a non-negative real factor -/

/-- Right multiplication by a non-negative real number distributes over a finite sum of
    extended reals (no condition on the summands: the factor is neither infinite nor negative,
    which are the two ways distributivity fails). -/
theorem sum_mul_coe_of_nonneg {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The reciprocal square root of a positive extended real is a non-negative real number:
    `0` at `⊤`, and `(√r)⁻¹` at a positive real `r`. -/
theorem rsqrt_of_pos (x : EReal) (hx : 0 < x) : ∃ r : ℝ, 0 ≤ r ∧ Ideal.rsqrt x = (r : EReal) := by
  induction x using EReal.rec with
  | bot => exact absurd hx not_lt_bot
  | top => exact ⟨0, le_refl _, by rw [Ideal.rsqrt_top, EReal.coe_zero]⟩
  | coe r =>
    have hr : 0 < r := by exact_mod_cast hx
    refine ⟨(Real.sqrt r)⁻¹, inv_nonneg.mpr (Real.sqrt_nonneg r), ?_⟩
    rw [Ideal.rsqrt_coe, if_neg (not_lt.mpr hr.le), if_neg hr.ne']

/-! ## The law -/

/-- THE LAW. Scatter-adding, into zeros, the edge rows `h[src e, ·] · (d[src e] · d[dstn e])`
    equals scatter-adding the pre-scaled rows `(h · d)[src e, ·]` and scaling node row `v` by
    `d[v]` afterwards, whenever every `d[v]` is a non-negative real and the index `dstn e`
    used for the gather agrees with the scatter index `dst e` wherever the latter is a row of
    the operand. An edge that lands on `v` has `dst e = v` in range, so its third factor is
    `d[v]`; that common factor comes out of the sum because it is a non-negative real. -/
theorem segment_factor (h : Nodes.Idx → EReal) (d : NodeV.Idx → EReal)
    (hd : ∀ v, ∃ r : ℝ, 0 ≤ r ∧ d v = (r : EReal))
    (isrc idstn idst : IVec EdgeI 32)
    (hn : ∀ e : EdgeI.Idx, 0 ≤ (idst e).toInt → (idst e).toInt < 50000 → idstn e = idst e)
    (updR updK : Edges.Idx → EReal)
    (hR : ∀ j, updR j = Host.gather rowGather h isrc j *
      (Host.gather eltGather d isrc (ix1 (j 0)) * Host.gather eltGather d idstn (ix1 (j 0))))
    (hK : ∀ j, updK j = Host.gather rowGather (fun u => h u * d (ix1 (u 0))) isrc j)
    (z : Nodes.Idx → EReal) (hz : ∀ i, z i = 0) (i : Nodes.Idx) :
    Ideal.hostScatterAdd rowScatter z idst updR i
      = Ideal.hostScatterAdd rowScatter z idst updK i * d (ix1 (i 0)) := by
  unfold Ideal.hostScatterAdd
  rw [hz i]
  simp only [zero_add]
  obtain ⟨r, hr, hdr⟩ := hd (ix1 (i 0))
  rw [hdr, sum_mul_coe_of_nonneg _ _ r hr]
  refine Finset.sum_congr rfl ?_
  intro j hj
  -- the edge of `j` lands on row `i 0`: its scatter index is that row, in range
  obtain ⟨hrow, _⟩ := rowScatter_lands idst j i (Finset.mem_filter.mp hj).2
  have hlt : (i 0).val < 50000 := idx2_lt0 i
  have hdst : idstn (ix2 (j 0) 0) = idst (ix2 (j 0) 0) :=
    hn _ (by rw [hrow]; exact Int.natCast_nonneg _) (by rw [hrow]; exact_mod_cast hlt)
  -- clamping an index that is already a row changes nothing
  have hrw : row (idst (ix2 (j 0) 0)) = i 0 := by
    apply Fin.ext
    show min (idst (ix2 (j 0) 0)).toInt.toNat 49999 = (i 0).val
    rw [hrow, Int.toNat_natCast]
    omega
  rw [hR, hK, rowGather_apply, rowGather_apply, eltGather_apply, eltGather_apply]
  show h (ix2 (row (isrc (ix2 (j 0) 0))) (j 1))
      * (d (ix1 (row (isrc (ix2 (j 0) 0)))) * d (ix1 (row (idstn (ix2 (j 0) 0)))))
    = h (ix2 (row (isrc (ix2 (j 0) 0))) (j 1)) * d (ix1 (row (isrc (ix2 (j 0) 0)))) * (r : EReal)
  rw [hdst, hrw, hdr, mul_assoc]

end Cert.SegLaw

end
-- ==== Proof.RefRead.lean ====
/-
  The reference program read stage by stage at an index: the first graph-convolution layer, the index columns
  and the inverse-root degree.

  Every statement is at the ideal instance (floats are extended reals, every operation exact) over the literal
  shapes of the program. A gather or a scatter-add stays a library term; every other stage is read through the
  read-at-an-index lemmas of the stages, with their composed index functions identified with `ix1`, `ix2`, `ix3`.

  One layer, for a node feature array `x`: the dense product `h = x · W`; per edge, the source row of `h` times
  the inverse-root degrees of the edge's two ends; the scatter-add of those messages at the destination column;
  then the bias of the column is added and the result clamped below at zero.
-/
import proofs.«146795_j3770981286765_2_alg».proof.Proof.RefReadP
import Idealize.ShloMosaic.Lib.ValueIdx
import Idealize.ShloMosaic.Lib.Pipeline.Value
import Idealize.ShloMosaic.PureOps.Ideal.Laws
import proofs.«146795_j3770981286765_2_alg».proof.Proof.Spec
import proofs.«146795_j3770981286765_2_alg».proof.Proof.LibSegmentFactor

noncomputable section

open scoped BigOperators

namespace Cert.ReferenceIdeal.RefRead

open Cert.ReferenceIdeal Cert.ReferenceIdeal.Read Idealize.ShloMosaic Idealize.ShloMosaic.ValueIdx

/-! ### Layer 0 -/

/-- The layer's weight matrix is slice `0` of the stacked weights. -/
theorem w0_apply (x1 : (⟨S3x128x128, .f32⟩ : BufTy).Contents (Elt Ideal)) (k q : Fin 128) :
    val_main_v35 (F := Ideal) x1 (ix2 k q) = x1 (ix3 0 k q) := by
  rw [val_main_v35_apply, val_main_v34_apply]
  refine congrArg x1 (funext fun a => Fin.ext ?_)
  have hk : k.val < 128 := k.isLt
  have hq : q.val < 128 := q.isLt
  match a with
  | ⟨0, _⟩ => rfl
  | ⟨1, _⟩ => show (k.val * 128 + q.val) / 128 % 128 = k.val; omega
  | ⟨2, _⟩ => show (k.val * 128 + q.val) % 128 = q.val; omega

/-- The layer's bias vector is row `0` of the stacked biases. -/
theorem bias0_apply (x2 : (⟨S3x128, .f32⟩ : BufTy).Contents (Elt Ideal)) (q : Fin 128) :
    val_main_v51 (F := Ideal) x2 (ix1 q) = x2 (ix2 0 q) := by
  rw [val_main_v51_apply, val_main_v50_apply]
  refine congrArg x2 (funext fun a => Fin.ext ?_)
  have hq : q.val < 128 := q.isLt
  match a with
  | ⟨0, _⟩ => rfl
  | ⟨1, _⟩ => show q.val % 128 = q.val; omega

/-- The dense product of the layer: row `i 0` of the input against column `i 1` of the weights. -/
theorem h0_apply (x0 : (⟨S50000x128, .f32⟩ : BufTy).Contents (Elt Ideal)) (x1 : (⟨S3x128x128, .f32⟩ : BufTy).Contents (Elt Ideal)) (i : S50000x128.Idx) :
    val_main_v36 (F := Ideal) x0 x1 i = ∑ k : Fin 128, x0 (ix2 (i 0) k) * val_main_v35 (F := Ideal) x1 (ix2 k (i 1)) := by
  rw [val_main_v36_apply]
  refine Finset.sum_congr rfl fun k _ => ?_
  have el : lidx_main_v36 i k = ix2 (i 0) k :=
    funext fun a => Fin.ext (by match a with | ⟨0, _⟩ => rfl | ⟨1, _⟩ => rfl)
  have er : ridx_main_v36 i k = ix2 k (i 1) :=
    funext fun a => Fin.ext (by match a with | ⟨0, _⟩ => rfl | ⟨1, _⟩ => rfl)
  exact congrArg₂ (· * ·) (congrArg _ el) (congrArg _ er)

/-- An edge's message: the source row of the product, times the two gathered inverse-root degrees of the edge. -/
theorem upd0_apply (x0 : (⟨S50000x128, .f32⟩ : BufTy).Contents (Elt Ideal)) (x1 : (⟨S3x128x128, .f32⟩ : BufTy).Contents (Elt Ideal)) (x5 : (⟨S2x625000, .i32⟩ : BufTy).Contents (Elt Ideal)) (j : S675000x128.Idx) :
    val_main_v46 (F := Ideal) x0 x1 x5 j =
      Host.gather gather_S50000x128_S675000x1_S675000x128_1_0_n_n_0_1_1128 (val_main_v36 (F := Ideal) x0 x1) (val_main_v42 (F := Ideal) x5) j *
        (Host.gather gather_S50000_S675000x1_S675000_n_0_n_n_0_1_1 (val_main_v14 (F := Ideal) x5) (val_main_v20 (F := Ideal) x5) (ix1 (j 0)) *
          Host.gather gather_S50000_S675000x1_S675000_n_0_n_n_0_1_1 (val_main_v14 (F := Ideal) x5) (val_main_v27 (F := Ideal) x5) (ix1 (j 0))) := by
  have e : idx_main_v44 (idx_main_v45 j) = ix1 (j 0) :=
    funext fun a => Fin.ext (by match a with | ⟨0, _⟩ => rfl)
  rw [val_main_v46_apply, val_main_v45_apply, val_main_v44_apply, val_main_v29_apply, e]
  rfl

/-- The aggregate is the scatter-add of the messages into a zero array at the raw destination column. -/
theorem agg0_eq (x0 : (⟨S50000x128, .f32⟩ : BufTy).Contents (Elt Ideal)) (x1 : (⟨S3x128x128, .f32⟩ : BufTy).Contents (Elt Ideal)) (x5 : (⟨S2x625000, .i32⟩ : BufTy).Contents (Elt Ideal)) :
    val_main_v49 (F := Ideal) x0 x1 x5 =
      Ideal.hostScatterAdd scatter_S50000x128_S675000x1_S675000x128_1_0_0_1 (val_main_v47 (F := Ideal)) (val_main_v48 (F := Ideal) x5) (val_main_v46 (F := Ideal) x0 x1 x5) := rfl

theorem zero47 (i : S50000x128.Idx) : val_main_v47 (F := Ideal) i = (0 : EReal) := by
  rw [val_main_v47_apply, val_main_cst_10_apply, Ideal.ofBits_def, Ideal.ofBits_zero_f32]

/-- The layer's output: the aggregate plus the bias of its column, clamped below at zero. -/
theorem x1_apply (x0 : (⟨S50000x128, .f32⟩ : BufTy).Contents (Elt Ideal)) (x1 : (⟨S3x128x128, .f32⟩ : BufTy).Contents (Elt Ideal)) (x2 : (⟨S3x128, .f32⟩ : BufTy).Contents (Elt Ideal)) (x5 : (⟨S2x625000, .i32⟩ : BufTy).Contents (Elt Ideal)) (i : S50000x128.Idx) :
    val_main_v55 (F := Ideal) x0 x1 x2 x5 i = max (val_main_v49 (F := Ideal) x0 x1 x5 i + val_main_v51 (F := Ideal) x2 (ix1 (i 1))) 0 := by
  have e : idx_main_v52 (idx_main_v53 i) = ix1 (i 1) :=
    funext fun a => Fin.ext (by match a with | ⟨0, _⟩ => rfl)
  rw [val_main_v55_apply, val_main_v54_apply, val_main_v53_apply, val_main_v52_apply, e,
    val_main_call1_v0_apply, val_main_call1_cst_apply, Ideal.ofBits_def, Ideal.ofBits_zero_f32]
  rfl

/-! ### The index columns and the inverse-root degree -/

/-- Each layer recomputes the wrapped source column and the raw destination column by the same operations. -/
theorem idx_same (x5 : (⟨S2x625000, .i32⟩ : BufTy).Contents (Elt Ideal)) :
    (val_main_v42 (F := Ideal) x5 = val_main_v20 (F := Ideal) x5 ∧ val_main_v64 (F := Ideal) x5 = val_main_v20 (F := Ideal) x5 ∧ val_main_v86 (F := Ideal) x5 = val_main_v20 (F := Ideal) x5) ∧
      (val_main_v70 (F := Ideal) x5 = val_main_v48 (F := Ideal) x5 ∧ val_main_v92 (F := Ideal) x5 = val_main_v48 (F := Ideal) x5 ∧ val_main_v9 (F := Ideal) x5 = val_main_v48 (F := Ideal) x5) :=
  ⟨⟨rfl, rfl, rfl⟩, ⟨rfl, rfl, rfl⟩⟩

/-- A destination index that is already in range is not negative, so wrapping keeps it. -/
theorem dst_norm (x5 : (⟨S2x625000, .i32⟩ : BufTy).Contents (Elt Ideal)) (e : S675000x1.Idx)
    (h0 : 0 ≤ (val_main_v48 (F := Ideal) x5 e).toInt) (h1 : (val_main_v48 (F := Ideal) x5 e).toInt < 50000) :
    val_main_v27 (F := Ideal) x5 e = val_main_v48 (F := Ideal) x5 e := by
  rw [val_main_v48_apply] at h0 ⊢
  have hi : idx_main_v27 e = idx_main_v48 e := rfl
  rw [val_main_v27_apply, val_main_v26_apply, val_main_v23_apply, val_main_v22_apply, val_main_c_4_apply, hi]
  have hc : IntOp.cmpi .slt (val_main_v6 (F := Ideal) x5 (idx_main_v48 e)) 0#32 = 0#1 := by
    refine eq_zero_of_ne_one fun h => ?_
    rw [IntOp.cmpi_slt] at h
    have hz : (0#32 : BitVec 32).toInt = 0 := by decide
    omega
  rw [hc, select_zero]

/-- The inverse-root degree of a node is a non-negative real: the inverse root of a positive degree, else zero. -/
theorem dinv_nonneg (x5 : (⟨S2x625000, .i32⟩ : BufTy).Contents (Elt Ideal)) (v : S50000.Idx) : ∃ r : ℝ, 0 ≤ r ∧ val_main_v14 (F := Ideal) x5 v = (r : EReal) := by
  rw [val_main_v14_apply, val_main_v12_apply, val_main_v13_apply, val_main_call0_v1_apply, val_main_call0_v0_apply,
    val_main_cst_2_apply, val_main_v11_apply, val_main_cst_1_apply, Ideal.hostUnary_rsqrt_def, Ideal.ofBits_def,
    Ideal.ofBits_zero_f32, Ideal.cmpf_def]
  by_cases hpos : (0 : EReal) < val_main_v10 (F := Ideal) x5 v
  · have hc : Ideal.cmp .ogt (val_main_v10 (F := Ideal) x5 v) 0 = 1#1 := by
      show BitVec.ofBool (decide ((0 : EReal) < val_main_v10 (F := Ideal) x5 v)) = 1#1
      rw [decide_eq_true hpos]; rfl
    rw [hc, select_one]
    exact Cert.SegLaw.rsqrt_of_pos _ hpos
  · have hc : Ideal.cmp .ogt (val_main_v10 (F := Ideal) x5 v) 0 = 0#1 := by
      show BitVec.ofBool (decide ((0 : EReal) < val_main_v10 (F := Ideal) x5 v)) = 0#1
      rw [decide_eq_false hpos]; rfl
    rw [hc, select_zero]
    exact ⟨0, le_refl 0, EReal.coe_zero.symm⟩

end Cert.ReferenceIdeal.RefRead

end
-- ==== Proof.RefReadLayers.lean ====
/-
  The reference program read stage by stage at an index: the second and third graph-convolution layers. They are
  the first layer's stages with the previous layer's output in place of the node features, rows 1 and 2 of the
  stacked weights and biases, and the same index columns and per-edge factors.
-/
import proofs.«146795_j3770981286765_2_alg».proof.Proof.RefReadP
import Idealize.ShloMosaic.Lib.ValueIdx
import Idealize.ShloMosaic.Lib.Pipeline.Value
import Idealize.ShloMosaic.PureOps.Ideal.Laws

noncomputable section

open scoped BigOperators

namespace Cert.ReferenceIdeal.RefRead

open Cert.ReferenceIdeal Cert.ReferenceIdeal.Read Idealize.ShloMosaic Idealize.ShloMosaic.ValueIdx

/-! ### Layer 1 -/

/-- The layer's weight matrix is slice `1` of the stacked weights. -/
theorem w1_apply (x1 : (⟨S3x128x128, .f32⟩ : BufTy).Contents (Elt Ideal)) (k q : Fin 128) :
    val_main_v57 (F := Ideal) x1 (ix2 k q) = x1 (ix3 1 k q) := by
  rw [val_main_v57_apply, val_main_v56_apply]
  refine congrArg x1 (funext fun a => Fin.ext ?_)
  have hk : k.val < 128 := k.isLt
  have hq : q.val < 128 := q.isLt
  match a with
  | ⟨0, _⟩ => rfl
  | ⟨1, _⟩ => show (k.val * 128 + q.val) / 128 % 128 = k.val; omega
  | ⟨2, _⟩ => show (k.val * 128 + q.val) % 128 = q.val; omega

/-- The layer's bias vector is row `1` of the stacked biases. -/
theorem bias1_apply (x2 : (⟨S3x128, .f32⟩ : BufTy).Contents (Elt Ideal)) (q : Fin 128) :
    val_main_v73 (F := Ideal) x2 (ix1 q) = x2 (ix2 1 q) := by
  rw [val_main_v73_apply, val_main_v72_apply]
  refine congrArg x2 (funext fun a => Fin.ext ?_)
  have hq : q.val < 128 := q.isLt
  match a with
  | ⟨0, _⟩ => rfl
  | ⟨1, _⟩ => show q.val % 128 = q.val; omega

/-- The dense product of the layer: row `i 0` of the input against column `i 1` of the weights. -/
theorem h1_apply (x0 : (⟨S50000x128, .f32⟩ : BufTy).Contents (Elt Ideal)) (x1 : (⟨S3x128x128, .f32⟩ : BufTy).Contents (Elt Ideal)) (x2 : (⟨S3x128, .f32⟩ : BufTy).Contents (Elt Ideal)) (x5 : (⟨S2x625000, .i32⟩ : BufTy).Contents (Elt Ideal)) (i : S50000x128.Idx) :
    val_main_v58 (F := Ideal) x0 x1 x2 x5 i = ∑ k : Fin 128, val_main_v55 (F := Ideal) x0 x1 x2 x5 (ix2 (i 0) k) * val_main_v57 (F := Ideal) x1 (ix2 k (i 1)) := by
  rw [val_main_v58_apply]
  refine Finset.sum_congr rfl fun k _ => ?_
  have el : lidx_main_v58 i k = ix2 (i 0) k :=
    funext fun a => Fin.ext (by match a with | ⟨0, _⟩ => rfl | ⟨1, _⟩ => rfl)
  have er : ridx_main_v58 i k = ix2 k (i 1) :=
    funext fun a => Fin.ext (by match a with | ⟨0, _⟩ => rfl | ⟨1, _⟩ => rfl)
  exact congrArg₂ (· * ·) (congrArg _ el) (congrArg _ er)

/-- An edge's message: the source row of the product, times the two gathered inverse-root degrees of the edge. -/
theorem upd1_apply (x0 : (⟨S50000x128, .f32⟩ : BufTy).Contents (Elt Ideal)) (x1 : (⟨S3x128x128, .f32⟩ : BufTy).Contents (Elt Ideal)) (x2 : (⟨S3x128, .f32⟩ : BufTy).Contents (Elt Ideal)) (x5 : (⟨S2x625000, .i32⟩ : BufTy).Contents (Elt Ideal)) (j : S675000x128.Idx) :
    val_main_v68 (F := Ideal) x0 x1 x2 x5 j =
      Host.gather gather_S50000x128_S675000x1_S675000x128_1_0_n_n_0_1_1128 (val_main_v58 (F := Ideal) x0 x1 x2 x5) (val_main_v64 (F := Ideal) x5) j *
        (Host.gather gather_S50000_S675000x1_S675000_n_0_n_n_0_1_1 (val_main_v14 (F := Ideal) x5) (val_main_v20 (F := Ideal) x5) (ix1 (j 0)) *
          Host.gather gather_S50000_S675000x1_S675000_n_0_n_n_0_1_1 (val_main_v14 (F := Ideal) x5) (val_main_v27 (F := Ideal) x5) (ix1 (j 0))) := by
  have e : idx_main_v66 (idx_main_v67 j) = ix1 (j 0) :=
    funext fun a => Fin.ext (by match a with | ⟨0, _⟩ => rfl)
  rw [val_main_v68_apply, val_main_v67_apply, val_main_v66_apply, val_main_v29_apply, e]
  rfl

/-- The aggregate is the scatter-add of the messages into a zero array at the raw destination column. -/
theorem agg1_eq (x0 : (⟨S50000x128, .f32⟩ : BufTy).Contents (Elt Ideal)) (x1 : (⟨S3x128x128, .f32⟩ : BufTy).Contents (Elt Ideal)) (x2 : (⟨S3x128, .f32⟩ : BufTy).Contents (Elt Ideal)) (x5 : (⟨S2x625000, .i32⟩ : BufTy).Contents (Elt Ideal)) :
    val_main_v71 (F := Ideal) x0 x1 x2 x5 =
      Ideal.hostScatterAdd scatter_S50000x128_S675000x1_S675000x128_1_0_0_1 (val_main_v69 (F := Ideal)) (val_main_v70 (F := Ideal) x5) (val_main_v68 (F := Ideal) x0 x1 x2 x5) := rfl

theorem zero69 (i : S50000x128.Idx) : val_main_v69 (F := Ideal) i = (0 : EReal) := by
  rw [val_main_v69_apply, val_main_cst_13_apply, Ideal.ofBits_def, Ideal.ofBits_zero_f32]

/-- The layer's output: the aggregate plus the bias of its column, clamped below at zero. -/
theorem x2_apply (x0 : (⟨S50000x128, .f32⟩ : BufTy).Contents (Elt Ideal)) (x1 : (⟨S3x128x128, .f32⟩ : BufTy).Contents (Elt Ideal)) (x2 : (⟨S3x128, .f32⟩ : BufTy).Contents (Elt Ideal)) (x5 : (⟨S2x625000, .i32⟩ : BufTy).Contents (Elt Ideal)) (i : S50000x128.Idx) :
    val_main_v77 (F := Ideal) x0 x1 x2 x5 i = max (val_main_v71 (F := Ideal) x0 x1 x2 x5 i + val_main_v73 (F := Ideal) x2 (ix1 (i 1))) 0 := by
  have e : idx_main_v74 (idx_main_v75 i) = ix1 (i 1) :=
    funext fun a => Fin.ext (by match a with | ⟨0, _⟩ => rfl)
  rw [val_main_v77_apply, val_main_v76_apply, val_main_v75_apply, val_main_v74_apply, e,
    val_main_call2_v0_apply, val_main_call2_cst_apply, Ideal.ofBits_def, Ideal.ofBits_zero_f32]
  rfl

/-! ### Layer 2 -/

/-- The layer's weight matrix is slice `2` of the stacked weights. -/
theorem w2_apply (x1 : (⟨S3x128x128, .f32⟩ : BufTy).Contents (Elt Ideal)) (k q : Fin 128) :
    val_main_v79 (F := Ideal) x1 (ix2 k q) = x1 (ix3 2 k q) := by
  rw [val_main_v79_apply, val_main_v78_apply]
  refine congrArg x1 (funext fun a => Fin.ext ?_)
  have hk : k.val < 128 := k.isLt
  have hq : q.val < 128 := q.isLt
  match a with
  | ⟨0, _⟩ => rfl
  | ⟨1, _⟩ => show (k.val * 128 + q.val) / 128 % 128 = k.val; omega
  | ⟨2, _⟩ => show (k.val * 128 + q.val) % 128 = q.val; omega

/-- The layer's bias vector is row `2` of the stacked biases. -/
theorem bias2_apply (x2 : (⟨S3x128, .f32⟩ : BufTy).Contents (Elt Ideal)) (q : Fin 128) :
    val_main_v95 (F := Ideal) x2 (ix1 q) = x2 (ix2 2 q) := by
  rw [val_main_v95_apply, val_main_v94_apply]
  refine congrArg x2 (funext fun a => Fin.ext ?_)
  have hq : q.val < 128 := q.isLt
  match a with
  | ⟨0, _⟩ => rfl
  | ⟨1, _⟩ => show q.val % 128 = q.val; omega

/-- The dense product of the layer: row `i 0` of the input against column `i 1` of the weights. -/
theorem h2_apply (x0 : (⟨S50000x128, .f32⟩ : BufTy).Contents (Elt Ideal)) (x1 : (⟨S3x128x128, .f32⟩ : BufTy).Contents (Elt Ideal)) (x2 : (⟨S3x128, .f32⟩ : BufTy).Contents (Elt Ideal)) (x5 : (⟨S2x625000, .i32⟩ : BufTy).Contents (Elt Ideal)) (i : S50000x128.Idx) :
    val_main_v80 (F := Ideal) x0 x1 x2 x5 i = ∑ k : Fin 128, val_main_v77 (F := Ideal) x0 x1 x2 x5 (ix2 (i 0) k) * val_main_v79 (F := Ideal) x1 (ix2 k (i 1)) := by
  rw [val_main_v80_apply]
  refine Finset.sum_congr rfl fun k _ => ?_
  have el : lidx_main_v80 i k = ix2 (i 0) k :=
    funext fun a => Fin.ext (by match a with | ⟨0, _⟩ => rfl | ⟨1, _⟩ => rfl)
  have er : ridx_main_v80 i k = ix2 k (i 1) :=
    funext fun a => Fin.ext (by match a with | ⟨0, _⟩ => rfl | ⟨1, _⟩ => rfl)
  exact congrArg₂ (· * ·) (congrArg _ el) (congrArg _ er)

/-- An edge's message: the source row of the product, times the two gathered inverse-root degrees of the edge. -/
theorem upd2_apply (x0 : (⟨S50000x128, .f32⟩ : BufTy).Contents (Elt Ideal)) (x1 : (⟨S3x128x128, .f32⟩ : BufTy).Contents (Elt Ideal)) (x2 : (⟨S3x128, .f32⟩ : BufTy).Contents (Elt Ideal)) (x5 : (⟨S2x625000, .i32⟩ : BufTy).Contents (Elt Ideal)) (j : S675000x128.Idx) :
    val_main_v90 (F := Ideal) x0 x1 x2 x5 j =
      Host.gather gather_S50000x128_S675000x1_S675000x128_1_0_n_n_0_1_1128 (val_main_v80 (F := Ideal) x0 x1 x2 x5) (val_main_v86 (F := Ideal) x5) j *
        (Host.gather gather_S50000_S675000x1_S675000_n_0_n_n_0_1_1 (val_main_v14 (F := Ideal) x5) (val_main_v20 (F := Ideal) x5) (ix1 (j 0)) *
          Host.gather gather_S50000_S675000x1_S675000_n_0_n_n_0_1_1 (val_main_v14 (F := Ideal) x5) (val_main_v27 (F := Ideal) x5) (ix1 (j 0))) := by
  have e : idx_main_v88 (idx_main_v89 j) = ix1 (j 0) :=
    funext fun a => Fin.ext (by match a with | ⟨0, _⟩ => rfl)
  rw [val_main_v90_apply, val_main_v89_apply, val_main_v88_apply, val_main_v29_apply, e]
  rfl

/-- The aggregate is the scatter-add of the messages into a zero array at the raw destination column. -/
theorem agg2_eq (x0 : (⟨S50000x128, .f32⟩ : BufTy).Contents (Elt Ideal)) (x1 : (⟨S3x128x128, .f32⟩ : BufTy).Contents (Elt Ideal)) (x2 : (⟨S3x128, .f32⟩ : BufTy).Contents (Elt Ideal)) (x5 : (⟨S2x625000, .i32⟩ : BufTy).Contents (Elt Ideal)) :
    val_main_v93 (F := Ideal) x0 x1 x2 x5 =
      Ideal.hostScatterAdd scatter_S50000x128_S675000x1_S675000x128_1_0_0_1 (val_main_v91 (F := Ideal)) (val_main_v92 (F := Ideal) x5) (val_main_v90 (F := Ideal) x0 x1 x2 x5) := rfl

theorem zero91 (i : S50000x128.Idx) : val_main_v91 (F := Ideal) i = (0 : EReal) := by
  rw [val_main_v91_apply, val_main_cst_16_apply, Ideal.ofBits_def, Ideal.ofBits_zero_f32]

/-- The layer's output: the aggregate plus the bias of its column, clamped below at zero. -/
theorem x3_apply (x0 : (⟨S50000x128, .f32⟩ : BufTy).Contents (Elt Ideal)) (x1 : (⟨S3x128x128, .f32⟩ : BufTy).Contents (Elt Ideal)) (x2 : (⟨S3x128, .f32⟩ : BufTy).Contents (Elt Ideal)) (x5 : (⟨S2x625000, .i32⟩ : BufTy).Contents (Elt Ideal)) (i : S50000x128.Idx) :
    val_main_v99 (F := Ideal) x0 x1 x2 x5 i = max (val_main_v93 (F := Ideal) x0 x1 x2 x5 i + val_main_v95 (F := Ideal) x2 (ix1 (i 1))) 0 := by
  have e : idx_main_v96 (idx_main_v97 i) = ix1 (i 1) :=
    funext fun a => Fin.ext (by match a with | ⟨0, _⟩ => rfl)
  rw [val_main_v99_apply, val_main_v98_apply, val_main_v97_apply, val_main_v96_apply, e,
    val_main_call3_v0_apply, val_main_call3_cst_apply, Ideal.ofBits_def, Ideal.ofBits_zero_f32]
  rfl

end Cert.ReferenceIdeal.RefRead

end
-- ==== Proof.RefReadTail.lean ====
/-
  The reference program read stage by stage at an index: the tail. The last activation is multiplied by the
  padding mask of its row; the masked rows and the mask itself are scatter-added at the batch column into per-graph
  sums and counts; each sum is divided by its count clamped below at one; the quotient meets the head's weights in a
  dense product, and the head's bias is added.
-/
import proofs.«146795_j3770981286765_2_alg».proof.Proof.RefReadP
import Idealize.ShloMosaic.Lib.ValueIdx
import Idealize.ShloMosaic.Lib.Pipeline.Value
import Idealize.ShloMosaic.PureOps.Ideal.Laws
import proofs.«146795_j3770981286765_2_alg».proof.Proof.Spec

noncomputable section

open scoped BigOperators

namespace Cert.ReferenceIdeal.RefRead

open Cert.ReferenceIdeal Cert.ReferenceIdeal.Read Idealize.ShloMosaic Idealize.ShloMosaic.ValueIdx

/-! ### The tail: the padding mask, the mean pool and the linear head -/

/-- The last activation times the padding mask of its row. -/
theorem xm_apply (x0 : (⟨S50000x128, .f32⟩ : BufTy).Contents (Elt Ideal)) (x1 : (⟨S3x128x128, .f32⟩ : BufTy).Contents (Elt Ideal)) (x2 : (⟨S3x128, .f32⟩ : BufTy).Contents (Elt Ideal)) (x5 : (⟨S2x625000, .i32⟩ : BufTy).Contents (Elt Ideal)) (i : S50000x128.Idx) :
    val_main_v102 (F := Ideal) x0 x1 x2 x5 i = val_main_v99 (F := Ideal) x0 x1 x2 x5 i * val_main_v33 (F := Ideal) x0 (ix1 (i 0)) := by
  have e : idx_main_v100 (idx_main_v101 i) = ix1 (i 0) :=
    funext fun a => Fin.ext (by match a with | ⟨0, _⟩ => rfl)
  rw [val_main_v102_apply, val_main_v101_apply, val_main_v100_apply, e]
  rfl

/-- The per-graph feature sums: the scatter-add of the masked rows into a zero array at the batch column. -/
theorem sums_eq (x0 : (⟨S50000x128, .f32⟩ : BufTy).Contents (Elt Ideal)) (x1 : (⟨S3x128x128, .f32⟩ : BufTy).Contents (Elt Ideal)) (x2 : (⟨S3x128, .f32⟩ : BufTy).Contents (Elt Ideal)) (x5 : (⟨S2x625000, .i32⟩ : BufTy).Contents (Elt Ideal)) (x6 : (⟨S50000, .i32⟩ : BufTy).Contents (Elt Ideal)) :
    val_main_v105 (F := Ideal) x0 x1 x2 x5 x6 =
      Ideal.hostScatterAdd scatter_S512x128_S50000x1_S50000x128_1_0_0_1 (val_main_v103 (F := Ideal)) (val_main_v104 (F := Ideal) x6) (val_main_v102 (F := Ideal) x0 x1 x2 x5) := rfl

theorem zero103 (i : S512x128.Idx) : val_main_v103 (F := Ideal) i = (0 : EReal) := by
  rw [val_main_v103_apply, val_main_cst_17_apply, Ideal.ofBits_def, Ideal.ofBits_zero_f32]

/-- The per-graph node counts: the scatter-add of the mask into a zero vector at the batch column. -/
theorem cnt_eq (x0 : (⟨S50000x128, .f32⟩ : BufTy).Contents (Elt Ideal)) (x6 : (⟨S50000, .i32⟩ : BufTy).Contents (Elt Ideal)) :
    val_main_v108 (F := Ideal) x0 x6 =
      Ideal.hostScatterAdd scatter_S512_S50000x1_S50000_n_0_0_1 (val_main_v106 (F := Ideal)) (val_main_v107 (F := Ideal) x6) (val_main_v33 (F := Ideal) x0) := rfl

theorem zero106 (i : S512.Idx) : val_main_v106 (F := Ideal) i = (0 : EReal) := by
  rw [val_main_v106_apply, val_main_cst_18_apply, Ideal.ofBits_def, Ideal.ofBits_zero_f32]

/-- The pooled mean: a graph's feature sum over its node count clamped below at one. -/
theorem pooled_apply (x0 : (⟨S50000x128, .f32⟩ : BufTy).Contents (Elt Ideal)) (x1 : (⟨S3x128x128, .f32⟩ : BufTy).Contents (Elt Ideal)) (x2 : (⟨S3x128, .f32⟩ : BufTy).Contents (Elt Ideal)) (x5 : (⟨S2x625000, .i32⟩ : BufTy).Contents (Elt Ideal)) (x6 : (⟨S50000, .i32⟩ : BufTy).Contents (Elt Ideal)) (g : Fin 512) (k : Fin 128) :
    val_main_v113 (F := Ideal) x0 x1 x2 x5 x6 (ix2 g k) =
      Ideal.div (val_main_v105 (F := Ideal) x0 x1 x2 x5 x6 (ix2 g k)) (max (val_main_v108 (F := Ideal) x0 x6 (ix1 g)) Cert.Gcn.one32) := by
  have e : idx_main_v111 (idx_main_v112 (ix2 g k)) = ix1 g :=
    funext fun a => Fin.ext (by match a with | ⟨0, _⟩ => rfl)
  rw [val_main_v113_apply, val_main_v112_apply, val_main_v111_apply, e, val_main_v110_apply, val_main_v109_apply,
    val_main_cst_19_apply, Ideal.hostDivf_def, Ideal.maximumf_def, Ideal.ofBits_def]

/-- The result: the pooled mean against the head's weights, plus the head's bias. -/
theorem out_apply (x0 : (⟨S50000x128, .f32⟩ : BufTy).Contents (Elt Ideal)) (x1 : (⟨S3x128x128, .f32⟩ : BufTy).Contents (Elt Ideal)) (x2 : (⟨S3x128, .f32⟩ : BufTy).Contents (Elt Ideal)) (x3 : (⟨S128x1, .f32⟩ : BufTy).Contents (Elt Ideal)) (x4 : (⟨S1, .f32⟩ : BufTy).Contents (Elt Ideal)) (x5 : (⟨S2x625000, .i32⟩ : BufTy).Contents (Elt Ideal)) (x6 : (⟨S50000, .i32⟩ : BufTy).Contents (Elt Ideal)) (g : Fin 512) :
    val_main_v118 (F := Ideal) x0 x1 x2 x3 x4 x5 x6 (ix1 g) =
      (∑ k : Fin 128, Ideal.div (val_main_v105 (F := Ideal) x0 x1 x2 x5 x6 (ix2 g k)) (max (val_main_v108 (F := Ideal) x0 x6 (ix1 g)) Cert.Gcn.one32)
          * x3 (ix2 k 0)) + x4 (ix1 0) := by
  have e4 : idx_main_v115 (idx_main_v116 (idx_main_v118 (ix1 g))) = ix1 0 :=
    funext fun a => Fin.ext (by match a with | ⟨0, _⟩ => rfl)
  rw [val_main_v118_apply, val_main_v117_apply, val_main_v116_apply, val_main_v115_apply, e4, val_main_v114_apply,
    Ideal.addf_def]
  refine congrArg (· + x4 (ix1 0)) (Finset.sum_congr rfl fun k _ => ?_)
  have el : lidx_main_v114 (idx_main_v118 (ix1 g)) k = ix2 g k :=
    funext fun a => Fin.ext (by
      match a with
      | ⟨0, _⟩ => show g.val / 1 = g.val; exact Nat.div_one _
      | ⟨1, _⟩ => rfl)
  have er : ridx_main_v114 (idx_main_v118 (ix1 g)) k = ix2 k 0 :=
    funext fun a => Fin.ext (by match a with | ⟨0, _⟩ => rfl | ⟨1, _⟩ => rfl)
  rw [el, er, pooled_apply]

end Cert.ReferenceIdeal.RefRead

end
-- ==== Proof.LibColumnCast.lean ====
/-
  A trailing unit axis added to or dropped from a vector, read at an index: an `[a]` array cast to the column
  `[a, 1]` holds at `(i, u)` what the vector holds at `i`, and a column cast back to `[a]` holds at `i` the column's
  entry `(i, 0)`. Both casts keep the row-major position, which for a column is the row number.
-/
import Idealize.ShloMosaic.Lib.Pipeline.Value
import Idealize.ShloMosaic.Lib.ValueIdx

noncomputable section

namespace Cert.ColumnCast

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.ColumnCast

end
-- ==== Proof.Bridge.lean ====
/-
  The two programs compute one function. Over the launch arrays `a0 … a6`:
  • the kernel's rows before each gather are the reference's layer products times the row's scale `d` (`hp_eq`);
  • hence, by the segment law (a non-negative real factor moves across an exact sum; `d[dst]` is constant on the
    edges landing on one node; a destination index in range is not wrapped and not clamped), the reference's
    aggregate is the kernel's aggregate times the receiving node's `d` (`agg_law`);
  • hence the reference's activation `max (agg + b) 0` is the kernel's `max (agg' · d + b) 0` (`x_eq`), which feeds the
    next layer; three times;
  • the masked last activation, the pooled sums and counts, and the head agree term by term (`xf_eq`, `out_eq`).
  No finiteness of the inputs is used: `d` is always a non-negative real (zero, or the inverse square root of a
  positive degree), and that is all the law needs.
-/
import proofs.«146795_j3770981286765_2_alg».proof.Proof.KValue
import proofs.«146795_j3770981286765_2_alg».proof.Proof.KIdent
import proofs.«146795_j3770981286765_2_alg».proof.Proof.RefRead
import proofs.«146795_j3770981286765_2_alg».proof.Proof.RefReadLayers
import proofs.«146795_j3770981286765_2_alg».proof.Proof.RefReadTail
import proofs.«146795_j3770981286765_2_alg».proof.Proof.LibSegmentFactor
import proofs.«146795_j3770981286765_2_alg».proof.Proof.LibColumnCast
import proofs.«146795_j3770981286765_2_alg».proof.Proof.Spec
import Idealize.ShloMosaic.Lib.ValueLayout

set_option maxRecDepth 16384

noncomputable section

open scoped BigOperators

namespace Cert.Bridge

open Cert.KernelIdeal.Host Cert.ReferenceIdeal.Read Cert.ReferenceIdeal.RefRead
open Idealize.ShloMosaic Idealize.ShloMosaic.ValueIdx Idealize.SL.Sem

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-! ## The columns and rows at an index -/

theorem dcol_ix (j : Cert.KernelIdeal.S50000x1.Idx) : dcol m ρ c j = val_main_v14 (F := Ideal) (a5 m c) (ix1 (j 0)) := by
  obtain ⟨v, u, rfl⟩ : ∃ (v : Fin 50000) (u : Fin 1), j = ix2 v u := ⟨j 0, j 1, eq_ix2 j⟩
  rw [dcol_eq]; exact Cert.ColumnCast.shapeCast_a_a1_apply _ _ v u
theorem mcol_ix (j : Cert.KernelIdeal.S50000x1.Idx) : mcol m ρ c j = val_main_v33 (F := Ideal) (a0 m c) (ix1 (j 0)) := by
  obtain ⟨v, u, rfl⟩ : ∃ (v : Fin 50000) (u : Fin 1), j = ix2 v u := ⟨j 0, j 1, eq_ix2 j⟩
  rw [mcol_eq]; exact Cert.ColumnCast.shapeCast_a_a1_apply _ _ v u
theorem bias0_ix (j : Cert.KernelIdeal.S1x128.Idx) : bias0 m c j = val_main_v51 (F := Ideal) (a2 m c) (ix1 (j 1)) := by
  obtain ⟨u, q, rfl⟩ : ∃ (u : Fin 1) (q : Fin 128), j = ix2 u q := ⟨j 0, j 1, eq_ix2 j⟩
  rw [bias0_eq]; exact shapeCast_a_1a_apply _ _ u q
theorem bias1_ix (j : Cert.KernelIdeal.S1x128.Idx) : bias1 m c j = val_main_v73 (F := Ideal) (a2 m c) (ix1 (j 1)) := by
  obtain ⟨u, q, rfl⟩ : ∃ (u : Fin 1) (q : Fin 128), j = ix2 u q := ⟨j 0, j 1, eq_ix2 j⟩
  rw [bias1_eq]; exact shapeCast_a_1a_apply _ _ u q
theorem bias2_ix (j : Cert.KernelIdeal.S1x128.Idx) : bias2 m c j = val_main_v95 (F := Ideal) (a2 m c) (ix1 (j 1)) := by
  obtain ⟨u, q, rfl⟩ : ∃ (u : Fin 1) (q : Fin 128), j = ix2 u q := ⟨j 0, j 1, eq_ix2 j⟩
  rw [bias2_eq]; exact shapeCast_a_1a_apply _ _ u q

/-! ## Layer 0 -/

/-- Region 0's rows are the reference's products for this layer, each row times its node's scale. -/
theorem hp0_eq : hp0 m ρ c = fun u => val_main_v36 (F := Ideal) (a0 m c) (a1 m c) u * val_main_v14 (F := Ideal) (a5 m c) (ix1 (u 0)) := by
  funext u
  unfold hp0 Cert.Gcn.scaledLin
  rw [h0_apply, wt0_eq, dcol_ix]

/-- The reference's aggregate is the kernel's, times the receiving node's scale: the per-edge factor
    `d[src] · d[dst]` splits, `d[dst]` is the same for every edge landing on a node, and a non-negative real factor
    moves across the exact sum. -/
theorem agg0_law (i : Cert.SegLaw.Nodes.Idx) :
    val_main_v49 (F := Ideal) (a0 m c) (a1 m c) (a5 m c) i = ag0 m ρ c i * val_main_v14 (F := Ideal) (a5 m c) (ix1 (i 0)) := by
  rw [agg0_eq]
  unfold ag0
  rw [segSum_eq, hp0_eq]
  have e42 : val_main_v42 (F := Ideal) (a5 m c) = val_main_v20 (F := Ideal) (a5 m c) := (idx_same (a5 m c)).1.1
  rw [e42]
  exact Cert.SegLaw.segment_factor (val_main_v36 (F := Ideal) (a0 m c) (a1 m c)) (val_main_v14 (F := Ideal) (a5 m c)) (dinv_nonneg (a5 m c))
    (val_main_v20 (F := Ideal) (a5 m c)) (val_main_v27 (F := Ideal) (a5 m c)) (val_main_v48 (F := Ideal) (a5 m c))
    (fun e h0 h1 => dst_norm (a5 m c) e h0 h1)
    (val_main_v46 (F := Ideal) (a0 m c) (a1 m c) (a5 m c)) _
    (fun j => by rw [upd0_apply, e42]; rfl)
    (fun j => rfl)
    (val_main_v47 (F := Ideal)) zero47 i

/-- So the next layer's input is the kernel's activation of its own aggregate. -/
theorem x1_eq : val_main_v55 (F := Ideal) (a0 m c) (a1 m c) (a2 m c) (a5 m c) = Cert.Gcn.act (ag0 m ρ c) (dcol m ρ c) (bias0 m c) := by
  funext i
  rw [x1_apply, agg0_law m ρ c]
  unfold Cert.Gcn.act
  rw [dcol_ix, bias0_ix]

/-! ## Layer 1 -/

/-- Region 1's rows are the reference's products for this layer, each row times its node's scale. -/
theorem hp1_eq : hp1 m ρ c = fun u => val_main_v58 (F := Ideal) (a0 m c) (a1 m c) (a2 m c) (a5 m c) u * val_main_v14 (F := Ideal) (a5 m c) (ix1 (u 0)) := by
  funext u
  unfold hp1 Cert.Gcn.fusedLayer Cert.Gcn.scaledLin
  rw [← x1_eq m ρ c, h1_apply, wt1_eq, dcol_ix]

/-- The reference's aggregate is the kernel's, times the receiving node's scale: the per-edge factor
    `d[src] · d[dst]` splits, `d[dst]` is the same for every edge landing on a node, and a non-negative real factor
    moves across the exact sum. -/
theorem agg1_law (i : Cert.SegLaw.Nodes.Idx) :
    val_main_v71 (F := Ideal) (a0 m c) (a1 m c) (a2 m c) (a5 m c) i = ag1 m ρ c i * val_main_v14 (F := Ideal) (a5 m c) (ix1 (i 0)) := by
  rw [agg1_eq, show val_main_v70 (F := Ideal) (a5 m c) = val_main_v48 (F := Ideal) (a5 m c) from (idx_same (a5 m c)).2.1, show val_main_v69 (F := Ideal) = val_main_v47 (F := Ideal) from rfl]
  unfold ag1
  rw [segSum_eq, hp1_eq]
  have e42 : val_main_v42 (F := Ideal) (a5 m c) = val_main_v20 (F := Ideal) (a5 m c) := (idx_same (a5 m c)).1.1
  rw [e42]
  exact Cert.SegLaw.segment_factor (val_main_v58 (F := Ideal) (a0 m c) (a1 m c) (a2 m c) (a5 m c)) (val_main_v14 (F := Ideal) (a5 m c)) (dinv_nonneg (a5 m c))
    (val_main_v20 (F := Ideal) (a5 m c)) (val_main_v27 (F := Ideal) (a5 m c)) (val_main_v48 (F := Ideal) (a5 m c))
    (fun e h0 h1 => dst_norm (a5 m c) e h0 h1)
    (val_main_v68 (F := Ideal) (a0 m c) (a1 m c) (a2 m c) (a5 m c)) _
    (fun j => by rw [upd1_apply, show val_main_v64 (F := Ideal) (a5 m c) = val_main_v20 (F := Ideal) (a5 m c) from (idx_same (a5 m c)).1.2.1]; rfl)
    (fun j => rfl)
    (val_main_v47 (F := Ideal)) zero47 i

/-- So the next layer's input is the kernel's activation of its own aggregate. -/
theorem x2_eq : val_main_v77 (F := Ideal) (a0 m c) (a1 m c) (a2 m c) (a5 m c) = Cert.Gcn.act (ag1 m ρ c) (dcol m ρ c) (bias1 m c) := by
  funext i
  rw [x2_apply, agg1_law m ρ c]
  unfold Cert.Gcn.act
  rw [dcol_ix, bias1_ix]

/-! ## Layer 2 -/

/-- Region 2's rows are the reference's products for this layer, each row times its node's scale. -/
theorem hp2_eq : hp2 m ρ c = fun u => val_main_v80 (F := Ideal) (a0 m c) (a1 m c) (a2 m c) (a5 m c) u * val_main_v14 (F := Ideal) (a5 m c) (ix1 (u 0)) := by
  funext u
  unfold hp2 Cert.Gcn.fusedLayer Cert.Gcn.scaledLin
  rw [← x2_eq m ρ c, h2_apply, wt2_eq, dcol_ix]

/-- The reference's aggregate is the kernel's, times the receiving node's scale: the per-edge factor
    `d[src] · d[dst]` splits, `d[dst]` is the same for every edge landing on a node, and a non-negative real factor
    moves across the exact sum. -/
theorem agg2_law (i : Cert.SegLaw.Nodes.Idx) :
    val_main_v93 (F := Ideal) (a0 m c) (a1 m c) (a2 m c) (a5 m c) i = ag2 m ρ c i * val_main_v14 (F := Ideal) (a5 m c) (ix1 (i 0)) := by
  rw [agg2_eq, show val_main_v92 (F := Ideal) (a5 m c) = val_main_v48 (F := Ideal) (a5 m c) from (idx_same (a5 m c)).2.2.1, show val_main_v91 (F := Ideal) = val_main_v47 (F := Ideal) from rfl]
  unfold ag2
  rw [segSum_eq, hp2_eq]
  have e42 : val_main_v42 (F := Ideal) (a5 m c) = val_main_v20 (F := Ideal) (a5 m c) := (idx_same (a5 m c)).1.1
  rw [e42]
  exact Cert.SegLaw.segment_factor (val_main_v80 (F := Ideal) (a0 m c) (a1 m c) (a2 m c) (a5 m c)) (val_main_v14 (F := Ideal) (a5 m c)) (dinv_nonneg (a5 m c))
    (val_main_v20 (F := Ideal) (a5 m c)) (val_main_v27 (F := Ideal) (a5 m c)) (val_main_v48 (F := Ideal) (a5 m c))
    (fun e h0 h1 => dst_norm (a5 m c) e h0 h1)
    (val_main_v90 (F := Ideal) (a0 m c) (a1 m c) (a2 m c) (a5 m c)) _
    (fun j => by rw [upd2_apply, show val_main_v86 (F := Ideal) (a5 m c) = val_main_v20 (F := Ideal) (a5 m c) from (idx_same (a5 m c)).1.2.2]; rfl)
    (fun j => rfl)
    (val_main_v47 (F := Ideal)) zero47 i

/-- So the next layer's input is the kernel's activation of its own aggregate. -/
theorem x3_eq : val_main_v99 (F := Ideal) (a0 m c) (a1 m c) (a2 m c) (a5 m c) = Cert.Gcn.act (ag2 m ρ c) (dcol m ρ c) (bias2 m c) := by
  funext i
  rw [x3_apply, agg2_law m ρ c]
  unfold Cert.Gcn.act
  rw [dcol_ix, bias2_ix]

/-! ## The masked activation, the pool and the head -/

/-- Region 3's output is the reference's last activation times the mask. -/
theorem xf_eq : xf m ρ c = val_main_v102 (F := Ideal) (a0 m c) (a1 m c) (a2 m c) (a5 m c) := by
  funext i
  unfold xf Cert.Gcn.finalAct
  rw [xm_apply, ← x3_eq m ρ c, mcol_ix]

/-- The mask column read back as a vector is the reference's mask. -/
theorem mask_vec : shapeCast Cert.KernelIdeal.S50000 (mcol m ρ c) Cert.KernelIdeal.Gen.shapeCasts_S50000x1_S50000 = val_main_v33 (F := Ideal) (a0 m c) := by
  funext v'
  obtain ⟨v, rfl⟩ : ∃ v : Fin 50000, v' = ix1 v := ⟨v' 0, eq_ix1 v'⟩
  rw [Cert.ColumnCast.shapeCast_a1_a_apply, mcol_ix]

/-- Each graph's count, read off the kernel's column. -/
theorem count_ix (j : Cert.KernelIdeal.S512x1.Idx) : count m ρ c j = val_main_v108 (F := Ideal) (a0 m c) (a6 m c) (ix1 (j 0)) := by
  obtain ⟨g, u, rfl⟩ : ∃ (g : Fin 512) (u : Fin 1), j = ix2 g u := ⟨j 0, j 1, eq_ix2 j⟩
  rw [count_eq, Cert.ColumnCast.shapeCast_a_a1_apply, mask_vec, cnt_eq]

/-- The kernel's result is the reference's. -/
theorem out_eq : out m ρ c = val_main_v118 (F := Ideal) (a0 m c) (a1 m c) (a2 m c) (a3 m c) (a4 m c) (a5 m c) (a6 m c) := by
  funext g'
  obtain ⟨g, rfl⟩ : ∃ g : Fin 512, g' = ix1 g := ⟨g' 0, eq_ix1 g'⟩
  rw [out_apply]
  unfold out
  rw [Cert.ColumnCast.shapeCast_a1_a_apply]
  unfold Cert.Gcn.head
  rw [pool_eq, xf_eq, ← sums_eq, count_ix, shapeCast_a_1a_apply]

end Cert.Bridge

end
-- ==== Proof.lean ====
/-
  A three-layer graph convolution with a masked mean pool and a linear head: the kernel (five pallas_call regions
  among host gathers and scatter-adds) against the plain jnp reference, equal at the ideal instance.

  The reference scales every edge's message by `d[src] · d[dst]` (`d` the inverse square root of a node's in-degree)
  before summing the messages into their destination node. The kernel scales a node's row by `d` once before the rows
  are gathered and the aggregate by `d` of the receiving node after the sum. On the extended reals a product does not
  distribute over a sum in general; it does for a factor that is a non-negative real, and `d` always is one (zero at
  degree zero, otherwise the inverse square root of a positive count). A destination index that lands inside the
  array is neither wrapped nor clamped, so `d[dst]` is the same for every edge landing on a node and comes out of the
  sum. Matrix products, the bias, the activation, the mask, the pooled sums, the counts and the head are the same
  functions on both sides. So the claim holds for every input; the precondition is never opened.

  Proof/LibSegmentFactor.lean  the law: row gather and row scatter-add at an index; the factor across the sum
  Proof/LibColumnCast.lean     a vector cast to a column and back, at an index
  Proof/Spec.lean              what each region computes, as whole-array functions
  Proof/KCommon, KRegion0–4    each region's output array is its function of the arrays it read
  Proof/KRun.lean              the kernel's run with its result buffer named
  Proof/KHostA, KValue, KIdent the host stretches read through the run's boundaries; the result as one term
  Proof/RefRunP, RefReadP      the reference's run and its stages (generated text, patched copies)
  Proof/RefRead, RefReadLayers, RefReadTail   the reference's stages at an index
  Proof/Bridge.lean            the two terms are one function
  `preserves` is `True`: the ideal pass rewrote nothing.
-/
import proofs.«146795_j3770981286765_2_alg».proof.Defs
import proofs.«146795_j3770981286765_2_alg».proof.Proof.Gen.Kernel
import proofs.«146795_j3770981286765_2_alg».proof.Proof.Gen.Kernel.Skeleton
import proofs.«146795_j3770981286765_2_alg».proof.Proof.Gen.Kernel.Launch
import proofs.«146795_j3770981286765_2_alg».proof.Proof.Gen.Kernel.Points
import proofs.«146795_j3770981286765_2_alg».proof.Proof.Gen.Kernel.Frame
import proofs.«146795_j3770981286765_2_alg».proof.Proof.Gen.KernelIdeal
import proofs.«146795_j3770981286765_2_alg».proof.Proof.Gen.KernelIdeal.Skeleton
import proofs.«146795_j3770981286765_2_alg».proof.Proof.Gen.KernelIdeal.Launch
import proofs.«146795_j3770981286765_2_alg».proof.Proof.Gen.KernelIdeal.Points
import proofs.«146795_j3770981286765_2_alg».proof.Proof.Gen.KernelIdeal.Frame
import proofs.«146795_j3770981286765_2_alg».proof.Proof.Gen.ReferenceIdeal
import proofs.«146795_j3770981286765_2_alg».proof.Proof.Gen.Pre_finite_inputs
import proofs.«146795_j3770981286765_2_alg».proof.Proof.RefRunP
import proofs.«146795_j3770981286765_2_alg».proof.Proof.RefReadP
import proofs.«146795_j3770981286765_2_alg».proof.Proof.KRun
import proofs.«146795_j3770981286765_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at one term: the kernel's closed form of its own launch arrays, which is the
    reference's last stage at arrays that agree with them. -/
theorem algebraic : Cert.algebraic_KernelIdeal_ReferenceIdeal := by
  intro m ρ m' ρ' _ hagree
  refine ⟨fun c => Cert.KernelIdeal.Host.out m ρ c, ?_, ?_⟩
  · exact (θ_run Cert.KernelIdeal.defs _ _).mono
      (fun r h c => ⟨(h c).1.trans (Cert.KernelIdeal.Host.result_eq m ρ c), (h c).2⟩) (Cert.KernelIdeal.Gen.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v118_eq, (hagree c).1, (hagree c).2.1, (hagree c).2.2.1, (hagree c).2.2.2.1,
      (hagree c).2.2.2.2.1, (hagree c).2.2.2.2.2.1, (hagree c).2.2.2.2.2.2]
    exact (Cert.Bridge.out_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
